-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x768 : Shape := ⟨3, ![4, 1, 768]⟩
abbrev S12x64x768 : Shape := ⟨3, ![12, 64, 768]⟩
abbrev S_ : Shape := ⟨0, ![]⟩

class Facts : Prop where
  bcast_S_S4x1x768 : S_.BroadcastsInDim S4x1x768 (![] : Fin 0 → Fin S4x1x768.rank)
  reducesTo_S4x1x768_S_d0_1_2 : S4x1x768.ReducesTo [0, 1, 2] S_
  h_S_ : 0 < S_.numel
  bcast_S_S12x64x768 : S_.BroadcastsInDim S12x64x768 (![] : Fin 0 → Fin S12x64x768.rank)
  reducesTo_S12x64x768_S_d0_1_2 : S12x64x768.ReducesTo [0, 1, 2] S_

variable [Facts]

def fn_part1 {F : FTy → Type} [FloatOps F] (main_arg4 : FVec F S12x64x768 .f32) (main_arg5 : FVec F S12x64x768 .f32) (main_v13 : IVec S_ 1) (main_v16 : IVec S12x64x768 1) : IVec S_ 1 :=
  let main_c_5 : IVec S_ 1 := constantI S_ 1 1#1
  let main_v17 : IVec S_ 1 := (fun x v => Host.reduce IntOp.andi x v reducesTo_S12x64x768_S_d0_1_2 h_S_) main_v16 main_c_5
  let main_v18 : IVec S_ 1 := andi main_v13 main_v17
  let main_v19 : FVec F S12x64x768 .f32 := Host.absf main_arg4
  let main_cst_6 : FVec F S_ .f32 := constant S_ .f32 0x7F800000#32
  let main_v20 : FVec F S12x64x768 .f32 := broadcastInDim S12x64x768 ![] bcast_S_S12x64x768 main_cst_6
  let main_v21 : IVec S12x64x768 1 := cmpf .olt main_v19 main_v20
  let main_c_7 : IVec S_ 1 := constantI S_ 1 1#1
  let main_v22 : IVec S_ 1 := (fun x v => Host.reduce IntOp.andi x v reducesTo_S12x64x768_S_d0_1_2 h_S_) main_v21 main_c_7
  let main_v23 : IVec S_ 1 := andi main_v18 main_v22
  let main_v24 : FVec F S12x64x768 .f32 := Host.absf main_arg5
  let main_cst_8 : FVec F S_ .f32 := constant S_ .f32 0x7F800000#32
  let main_v25 : FVec F S12x64x768 .f32 := broadcastInDim S12x64x768 ![] bcast_S_S12x64x768 main_cst_8
  let main_v26 : IVec S12x64x768 1 := cmpf .olt main_v24 main_v25
  let main_c_9 : IVec S_ 1 := constantI S_ 1 1#1
  let main_v27 : IVec S_ 1 := (fun x v => Host.reduce IntOp.andi x v reducesTo_S12x64x768_S_d0_1_2 h_S_) main_v26 main_c_9
  let main_v28 : IVec S_ 1 := andi main_v23 main_v27
  main_v28

def fn {F : FTy → Type} [FloatOps F] (main_arg0 : FVec F S4x1x768 .f32) (main_arg1 : FVec F S4x1x768 .f32) (main_arg2 : FVec F S4x1x768 .f32) (main_arg3 : FVec F S12x64x768 .f32) (main_arg4 : FVec F S12x64x768 .f32) (main_arg5 : FVec F S12x64x768 .f32) : IVec S_ 1 :=
  let main_v0 : FVec F S4x1x768 .f32 := Host.absf main_arg0
  let main_cst : FVec F S_ .f32 := constant S_ .f32 0x7F800000#32
  let main_v1 : FVec F S4x1x768 .f32 := broadcastInDim S4x1x768 ![] bcast_S_S4x1x768 main_cst
  let main_v2 : IVec S4x1x768 1 := cmpf .olt main_v0 main_v1
  let main_c : IVec S_ 1 := constantI S_ 1 1#1
  let main_v3 : IVec S_ 1 := (fun x v => Host.reduce IntOp.andi x v reducesTo_S4x1x768_S_d0_1_2 h_S_) main_v2 main_c
  let main_v4 : FVec F S4x1x768 .f32 := Host.absf main_arg1
  let main_cst_0 : FVec F S_ .f32 := constant S_ .f32 0x7F800000#32
  let main_v5 : FVec F S4x1x768 .f32 := broadcastInDim S4x1x768 ![] bcast_S_S4x1x768 main_cst_0
  let main_v6 : IVec S4x1x768 1 := cmpf .olt main_v4 main_v5
  let main_c_1 : IVec S_ 1 := constantI S_ 1 1#1
  let main_v7 : IVec S_ 1 := (fun x v => Host.reduce IntOp.andi x v reducesTo_S4x1x768_S_d0_1_2 h_S_) main_v6 main_c_1
  let main_v8 : IVec S_ 1 := andi main_v3 main_v7
  let main_v9 : FVec F S4x1x768 .f32 := Host.absf main_arg2
  let main_cst_2 : FVec F S_ .f32 := constant S_ .f32 0x7F800000#32
  let main_v10 : FVec F S4x1x768 .f32 := broadcastInDim S4x1x768 ![] bcast_S_S4x1x768 main_cst_2
  let main_v11 : IVec S4x1x768 1 := cmpf .olt main_v9 main_v10
  let main_c_3 : IVec S_ 1 := constantI S_ 1 1#1
  let main_v12 : IVec S_ 1 := (fun x v => Host.reduce IntOp.andi x v reducesTo_S4x1x768_S_d0_1_2 h_S_) main_v11 main_c_3
  let main_v13 : IVec S_ 1 := andi main_v8 main_v12
  let main_v14 : FVec F S12x64x768 .f32 := Host.absf main_arg3
  let main_cst_4 : FVec F S_ .f32 := constant S_ .f32 0x7F800000#32
  let main_v15 : FVec F S12x64x768 .f32 := broadcastInDim S12x64x768 ![] bcast_S_S12x64x768 main_cst_4
  let main_v16 : IVec S12x64x768 1 := cmpf .olt main_v14 main_v15
  fn_part1 (F := F) main_arg4 main_arg5 main_v13 main_v16
-- ==== Kernel.lean ====
abbrev S4x1x768 : Shape := ⟨3, ![4, 1, 768]⟩
abbrev S12x64x768 : Shape := ⟨3, ![12, 64, 768]⟩
abbrev S768x768 : Shape := ⟨2, ![768, 768]⟩
abbrev S768 : Shape := ⟨1, ![768]⟩
abbrev S_ : Shape := ⟨0, ![]⟩
abbrev S12 : Shape := ⟨1, ![12]⟩
abbrev S768x1 : Shape := ⟨2, ![768, 1]⟩
abbrev S1x12 : Shape := ⟨2, ![1, 12]⟩
abbrev S768x12 : Shape := ⟨2, ![768, 12]⟩
abbrev S12x768 : Shape := ⟨2, ![12, 768]⟩
abbrev S4x2048x768 : Shape := ⟨3, ![4, 2048, 768]⟩
abbrev S1x1x768 : Shape := ⟨3, ![1, 1, 768]⟩
abbrev S1x512x768 : Shape := ⟨3, ![1, 512, 768]⟩
abbrev S1x768 : Shape := ⟨2, ![1, 768]⟩
abbrev S512x768 : Shape := ⟨2, ![512, 768]⟩

abbrev nBuf : Space → Nat
  | .hbm => 37
  | .vmem => 13
  | .smem => 0
  | _ => 0

abbrev bufTy : (tb : Table) → Fin (tcTables nBuf tb) → BufTy
  | .hbm, ⟨0, _⟩ => ⟨S4x1x768, .f32⟩
  | .hbm, ⟨1, _⟩ => ⟨S4x1x768, .f32⟩
  | .hbm, ⟨2, _⟩ => ⟨S4x1x768, .f32⟩
  | .hbm, ⟨3, _⟩ => ⟨S12x64x768, .f32⟩
  | .hbm, ⟨4, _⟩ => ⟨S12x64x768, .f32⟩
  | .hbm, ⟨5, _⟩ => ⟨S12x64x768, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S768, .i32⟩
  | .hbm, ⟨10, _⟩ => ⟨S_, .i32⟩
  | .hbm, ⟨11, _⟩ => ⟨S_, .i32⟩
  | .hbm, ⟨12, _⟩ => ⟨S768, .i32⟩
  | .hbm, ⟨13, _⟩ => ⟨S768, .i32⟩
  | .hbm, ⟨14, _⟩ => ⟨S768, .i32⟩
  | .hbm, ⟨15, _⟩ => ⟨S_, .i32⟩
  | .hbm, ⟨16, _⟩ => ⟨S768, .i32⟩
  | .hbm, ⟨17, _⟩ => ⟨S768, .i1⟩
  | .hbm, ⟨18, _⟩ => ⟨S768, .i32⟩
  | .hbm, ⟨19, _⟩ => ⟨S768, .i32⟩
  | .hbm, ⟨20, _⟩ => ⟨S_, .i32⟩
  | .hbm, ⟨21, _⟩ => ⟨S768, .i32⟩
  | .hbm, ⟨22, _⟩ => ⟨S768, .i1⟩
  | .hbm, ⟨23, _⟩ => ⟨S768, .i1⟩
  | .hbm, ⟨24, _⟩ => ⟨S_, .i32⟩
  | .hbm, ⟨25, _⟩ => ⟨S768, .i32⟩
  | .hbm, ⟨26, _⟩ => ⟨S768, .i32⟩
  | .hbm, ⟨27, _⟩ => ⟨S768, .i32⟩
  | .hbm, ⟨28, _⟩ => ⟨S12, .i32⟩
  | .hbm, ⟨29, _⟩ => ⟨S768x1, .i32⟩
  | .hbm, ⟨30, _⟩ => ⟨S1x12, .i32⟩
  | .hbm, ⟨31, _⟩ => ⟨S768x12, .i32⟩
  | .hbm, ⟨32, _⟩ => ⟨S768x12, .i32⟩
  | .hbm, ⟨33, _⟩ => ⟨S768x12, .i1⟩
  | .hbm, ⟨34, _⟩ => ⟨S768x12, .f32⟩
  | .hbm, ⟨35, _⟩ => ⟨S12x768, .f32⟩
  | .hbm, ⟨36, _⟩ => ⟨S4x2048x768, .f32⟩
  | .local _ .vmem, ⟨0, _⟩ => ⟨S1x1x768, .f32⟩
  | .local _ .vmem, ⟨1, _⟩ => ⟨S1x1x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S768x12, .f32⟩
  | .local _ .vmem, ⟨10, _⟩ => ⟨S12x768, .f32⟩
  | .local _ .vmem, ⟨11, _⟩ => ⟨S1x512x768, .f32⟩
  | .local _ .vmem, ⟨12, _⟩ => ⟨S1x512x768, .f32⟩
  | _, _ => ⟨S4x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S12x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S12x64x768_S768x768 : S12x64x768.ShapeCasts S768x768
  bcast_S_S768 : S_.BroadcastsInDim S768 (![] : Fin 0 → Fin S768.rank)
  bcast_S768_S768x1_0 : S768.BroadcastsInDim S768x1 (![0] : Fin 1 → Fin S768x1.rank)
  bcast_S12_S1x12_1 : S12.BroadcastsInDim S1x12 (![1] : Fin 1 → Fin S1x12.rank)
  bcast_S768x1_S768x12_0_1 : S768x1.BroadcastsInDim S768x12 (![0, 1] : Fin 2 → Fin S768x12.rank)
  bcast_S1x12_S768x12_0_1 : S1x12.BroadcastsInDim S768x12 (![0, 1] : Fin 2 → Fin S768x12.rank)
  transposes_S768x12_S12x768_1_0 : S768x12.Transposes [1, 0] S12x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x12_S768x12_0_0 : ∀ a, (![0, 0] : Fin 2 → Nat) a + S768x12.size a ≤ S768x12.size a
  h_S768x12 : 0 < S768x12.numel
  shapeCasts_S768x12_S768x12 : S768x12.ShapeCasts S768x12
  inb_S12x768_S12x768_0_0 : ∀ a, (![0, 0] : Fin 2 → Nat) a + S12x768.size a ≤ S12x768.size a
  h_S12x768 : 0 < S12x768.numel
  shapeCasts_S12x768_S12x768 : S12x768.ShapeCasts S12x768
  shapeCasts_S1x768_S1x768 : S1x768.ShapeCasts S1x768
  broadcasts_S1x768_S512x768 : S1x768.Broadcasts S512x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  shapeCasts_S1x768_S768 : S1x768.ShapeCasts S768
  inb_S1x512x768_S1x1x768_0_0_0 : ∀ a, (![0, 0, 0] : Fin 3 → Nat) a + S1x1x768.size a ≤ S1x512x768.size a
  shapeCasts_S1x1x768_S768 : S1x1x768.ShapeCasts S768
  shapeCasts_S768_S1x1x768 : S768.ShapeCasts S1x1x768
  dot_S1x768_S768x768_S1x768_1_1_0_0_n_n_wf : DotDims.WF S1x768 S768x768 S1x768 [1] [1] [0] [0] [] []
  dot_S1x768_S768x12_S1x12_1_0_0_1_n_n_wf : DotDims.WF S1x768 S768x12 S1x12 [1] [0] [0] [1] [] []
  dot_S1x12_S12x768_S1x768_1_0_0_1_n_n_wf : DotDims.WF S1x12 S12x768 S1x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x768.size a ≤ S4x1x768.size a
  hwx0_0 : ∀ i : grid0.Coords, EltTy.bits .f32 = 32 ∨ (Rect.block (s := S4x1x768) S1x1x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768.size a ≤ S4x1x768.size a
  hwx0_1 : ∀ i : grid0.Coords, EltTy.bits .f32 = 32 ∨ (Rect.block (s := S4x1x768) S1x1x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S4x1x768.size a
  hwx0_2 : ∀ i : grid0.Coords, EltTy.bits .f32 = 32 ∨ (Rect.block (s := S4x1x768) S1x1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .f32 = 32 ∨ (Rect.block (s := S768x768) S768x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x12.size a ≤ S768x12.size a
  hwx0_6 : ∀ i : grid0.Coords, EltTy.bits .f32 = 32 ∨ (Rect.block (s := S768x12) S768x12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x768.size a ≤ S12x768.size a
  hwx0_7 : ∀ i : grid0.Coords, EltTy.bits .f32 = 32 ∨ (Rect.block (s := S12x768) S12x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x768.size a ≤ S4x2048x768.size a
  hwx0_8 : ∀ i : grid0.Coords, EltTy.bits .f32 = 32 ∨ (Rect.block (s := S4x2048x768) S1x512x768.size (cc0_transform_8 i) (hinb0_8 i)).WholeWords (EltTy.packing .f32)

variable [Facts₀]

def dot_S1x768_S768x768_S1x768_1_1_0_0_n_n : DotDims S1x768 S768x768 S1x768 where
  lhsContracting := [1]
  rhsContracting := [1]
  lhsNonContracting := [0]
  rhsNonContracting := [0]
  lhsBatch := []
  rhsBatch := []
  wf := dot_S1x768_S768x768_S1x768_1_1_0_0_n_n_wf
def dot_S1x768_S768x12_S1x12_1_0_0_1_n_n : DotDims S1x768 S768x12 S1x12 where
  lhsContracting := [1]
  rhsContracting := [0]
  lhsNonContracting := [0]
  rhsNonContracting := [1]
  lhsBatch := []
  rhsBatch := []
  wf := dot_S1x768_S768x12_S1x12_1_0_0_1_n_n_wf
def dot_S1x12_S12x768_S1x768_1_0_0_1_n_n : DotDims S1x12 S12x768 S1x768 where
  lhsContracting := [1]
  rhsContracting := [0]
  lhsNonContracting := [0]
  rhsNonContracting := [1]
  lhsBatch := []
  rhsBatch := []
  wf := dot_S1x12_S12x768_S1x768_1_0_0_1_n_n_wf

abbrev win0_0 : Pipeline.Window sig grid0 :=
  Pipeline.Window.ofSpec (Memref.whole main_arg0) S1x1x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S768x12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S12x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x512x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x1x768 : Shape := ⟨3, ![4, 1, 768]⟩
abbrev S12x64x768 : Shape := ⟨3, ![12, 64, 768]⟩
abbrev S12x64x4x1 : Shape := ⟨4, ![12, 64, 4, 1]⟩
abbrev S4x12x1x64 : Shape := ⟨4, ![4, 12, 1, 64]⟩
abbrev S_ : Shape := ⟨0, ![]⟩
abbrev S4x12x2048x64 : Shape := ⟨4, ![4, 12, 2048, 64]⟩
abbrev S4x12x64 : Shape := ⟨3, ![4, 12, 64]⟩
abbrev S1 : Shape := ⟨1, ![1]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S4x2048x768 : Shape := ⟨3, ![4, 2048, 768]⟩

abbrev nBuf : Space → Nat
  | .hbm => 47
  | .vmem => 0
  | .smem => 0
  | _ => 0

abbrev bufTy : (tb : Table) → Fin (tcTables nBuf tb) → BufTy
  | .hbm, ⟨0, _⟩ => ⟨S4x1x768, .f32⟩
  | .hbm, ⟨1, _⟩ => ⟨S4x1x768, .f32⟩
  | .hbm, ⟨2, _⟩ => ⟨S4x1x768, .f32⟩
  | .hbm, ⟨3, _⟩ => ⟨S12x64x768, .f32⟩
  | .hbm, ⟨4, _⟩ => ⟨S12x64x768, .f32⟩
  | .hbm, ⟨5, _⟩ => ⟨S12x64x768, .f32⟩
  | .hbm, ⟨6, _⟩ => ⟨S12x64x4x1, .f32⟩
  | .hbm, ⟨7, _⟩ => ⟨S4x12x1x64, .f32⟩
  | .hbm, ⟨8, _⟩ => ⟨S12x64x4x1, .f32⟩
  | .hbm, ⟨9, _⟩ => ⟨S4x12x1x64, .f32⟩
  | .hbm, ⟨10, _⟩ => ⟨S12x64x4x1, .f32⟩
  | .hbm, ⟨11, _⟩ => ⟨S4x12x1x64, .f32⟩
  | .hbm, ⟨12, _⟩ => ⟨S_, .f32⟩
  | .hbm, ⟨13, _⟩ => ⟨S4x12x2048x64, .f32⟩
  | .hbm, ⟨14, _⟩ => ⟨S4x12x64, .f32⟩
  | .hbm, ⟨15, _⟩ => ⟨S_, .i32⟩
  | .hbm, ⟨16, _⟩ => ⟨S1, .i32⟩
  | .hbm, ⟨17, _⟩ => ⟨S4x12x2048x64, .f32⟩
  | .hbm, ⟨18, _⟩ => ⟨S4x12x64, .f32⟩
  | .hbm, ⟨19, _⟩ => ⟨S_, .i32⟩
  | .hbm, ⟨20, _⟩ => ⟨S1, .i32⟩
  | .hbm, ⟨21, _⟩ => ⟨S4x12x2048x64, .f32⟩
  | .hbm, ⟨22, _⟩ => ⟨S4x12x64, .f32⟩
  | .hbm, ⟨23, _⟩ => ⟨S_, .i32⟩
  | .hbm, ⟨24, _⟩ => ⟨S1, .i32⟩
  | .hbm, ⟨25, _⟩ => ⟨S4x12x2048x64, .f32⟩
  | .hbm, ⟨26, _⟩ => ⟨S4x12x2048x2048, .f32⟩
  | .hbm, ⟨27, _⟩ => ⟨S_, .f32⟩
  | .hbm, ⟨28, _⟩ => ⟨S4x12x2048x2048, .f32⟩
  | .hbm, ⟨29, _⟩ => ⟨S4x12x2048x2048, .f32⟩
  | .hbm, ⟨30, _⟩ => ⟨S_, .f32⟩
  | .hbm, ⟨31, _⟩ => ⟨S4x12x2048, .f32⟩
  | .hbm, ⟨32, _⟩ => ⟨S_, .f32⟩
  | .hbm, ⟨33, _⟩ => ⟨S4x12x2048, .f32⟩
  | .hbm, ⟨34, _⟩ => ⟨S4x12x2048, .f32⟩
  | .hbm, ⟨35, _⟩ => ⟨S4x12x2048x1, .f32⟩
  | .hbm, ⟨36, _⟩ => ⟨S4x12x2048x2048, .f32⟩
  | .hbm, ⟨37, _⟩ => ⟨S4x12x2048x2048, .f32⟩
  | .hbm, ⟨38, _⟩ => ⟨S4x12x2048x2048, .f32⟩
  | .hbm, ⟨39, _⟩ => ⟨S_, .f32⟩
  | .hbm, ⟨40, _⟩ => ⟨S4x12x2048, .f32⟩
  | .hbm, ⟨41, _⟩ => ⟨S4x12x2048x1, .f32⟩
  | .hbm, ⟨42, _⟩ => ⟨S4x12x2048x2048, .f32⟩
  | .hbm, ⟨43, _⟩ => ⟨S4x12x2048x2048, .f32⟩
  | .hbm, ⟨44, _⟩ => ⟨S4x12x2048x64, .f32⟩
  | .hbm, ⟨45, _⟩ => ⟨S4x2048x12x64, .f32⟩
  | .hbm, ⟨46, _⟩ => ⟨S4x2048x768, .f32⟩
  | _, _ => ⟨S4x1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  transposes_S12x64x4x1_S4x12x1x64_2_0_3_1 : S12x64x4x1.Transposes [2, 0, 3, 1] S4x12x1x64
  bcast_S_S4x12x2048x64 : S_.BroadcastsInDim S4x12x2048x64 (![] : Fin 0 → Fin S4x12x2048x64.rank)
  shapeCasts_S4x12x1x64_S4x12x64 : S4x12x1x64.ShapeCasts S4x12x64
  bcast_S_S1 : S_.BroadcastsInDim S1 (![] : Fin 0 → Fin S1.rank)
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S12x64x768_S4x1x768_S12x64x4x1_2_2_01_01_n_n_wf : DotDims.WF S12x64x768 S4x1x768 S12x64x4x1 [2] [2] [0, 1] [0, 1] [] []
  scatter_S4x12x2048x64_S1_S4x12x64_012_2_2_0_wf : ScatterDims.WF S4x12x2048x64 S1 S4x12x64 [0, 1, 2] [2] [2] 0
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S12x64x768_S4x1x768_S12x64x4x1_2_2_01_01_n_n : DotDims S12x64x768 S4x1x768 S12x64x4x1 where
  lhsContracting := [2]
  rhsContracting := [2]
  lhsNonContracting := [0, 1]
  rhsNonContracting := [0, 1]
  lhsBatch := []
  rhsBatch := []
  wf := dot_S12x64x768_S4x1x768_S12x64x4x1_2_2_01_01_n_n_wf
def scatter_S4x12x2048x64_S1_S4x12x64_012_2_2_0 : ScatterDims S4x12x2048x64 S1 S4x12x64 where
  updateWindowDims := [0, 1, 2]
  insertedWindowDims := [2]
  scatterDimsToOperandDims := [2]
  indexVectorDim := 0
  wf := scatter_S4x12x2048x64_S1_S4x12x64_012_2_2_0_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.Spec.lean ====
/-
  One decoding step of multi-head attention over a freshly zeroed key/value cache, as one function of the six
  argument arrays.

  The new token `b` is projected per head `h` to a query, a key and a value of 64 coordinates (`proj`). The cache of
  2048 slots holds the token at slot 0 and zeros elsewhere, so query row 0 sees the logit `s = ⟨q, k⟩ / 8` at key 0 and
  2047 zero logits: its softmax weight at key 0 is `1 / (1 + 2047 · e^(-s))` (`weight0`), and since every other value row
  is zero the row's output is that weight times the value. Every other query row is zero, its logits are all zero, its
  softmax is uniform, and its output is the value divided by 2048.

  Float literals are kept as their words: `0x3E000000` is 1/8, `0x3F800000` is 1, `0x44FFE000` is 2047,
  `0x3A000000` is 1/2048, `0x00000000` is 0.
-/
import Idealize.ShloMosaic.PureOps.Ideal
import Idealize.ShloMosaic.Lib.ValueIdx

noncomputable section

namespace Cert.FreshCache

open Idealize.ShloMosaic Idealize.ShloMosaic.ValueIdx

/-- A token array: batch 4, one token, 768 embedding coordinates. -/
abbrev SX : Shape := ⟨3, ![4, 1, 768]⟩
/-- A projection's weights: 12 heads, 64 coordinates per head, 768 embedding coordinates. -/
abbrev SW : Shape := ⟨3, ![12, 64, 768]⟩
/-- The output: batch 4, 2048 cache slots, 12 · 64 concatenated head coordinates. -/
abbrev SO : Shape := ⟨3, ![4, 2048, 768]⟩

/-- The head a concatenated coordinate belongs to. -/
def headOf (j : Fin 768) : Fin 12 := ⟨j.val / 64, by have := j.isLt; omega⟩
/-- Its coordinate inside the head. -/
def laneOf (j : Fin 768) : Fin 64 := ⟨j.val % 64, Nat.mod_lt _ (by norm_num)⟩

/-- Coordinate `d` of head `h` of token `b`'s projection: the inner product of the token with the weight row. -/
def proj (x : SX.Idx → EReal) (w : SW.Idx → EReal) (b : Fin 4) (h : Fin 12) (d : Fin 64) : EReal :=
  ∑ e : Fin 768, x (ix3 b 0 e) * w (ix3 h d e)

/-- The scaled logit of the token's query against its own key, per head. -/
def logit (q k : SX.Idx → EReal) (wq wk : SW.Idx → EReal) (b : Fin 4) (h : Fin 12) : EReal :=
  (∑ d : Fin 64, proj q wq b h d * proj k wk b h d) * Ideal.ofBits .f32 0x3E000000#32

/-- The softmax weight of a logit `s` among 2047 zero logits: `1 / (1 + 2047 · e^(0 - s))`. -/
def weight0 (s : EReal) : EReal :=
  Ideal.div (Ideal.ofBits .f32 0x3F800000#32)
    (Ideal.ofBits .f32 0x3F800000#32 + Ideal.ofBits .f32 0x44FFE000#32 * Ideal.exp (Ideal.ofBits .f32 0x00000000#32 - s))

/-- The output at batch `b`, slot `s`, concatenated coordinate `j`. -/
def outAt (q k v : SX.Idx → EReal) (wq wk wv : SW.Idx → EReal) (b : Fin 4) (s : Fin 2048) (j : Fin 768) : EReal :=
  if s.val = 0 then weight0 (logit q k wq wk b (headOf j)) * proj v wv b (headOf j) (laneOf j)
  else proj v wv b (headOf j) (laneOf j) * Ideal.ofBits .f32 0x3A000000#32

/-- The whole output array. -/
def out (q k v : SX.Idx → EReal) (wq wk wv : SW.Idx → EReal) : SO.Idx → EReal :=
  fun i => outAt q k v wq wk wv (i 0) (i 1) (i 2)

end Cert.FreshCache

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibMatmulRowsByRowsOf.lean ====
/-
  A matrix product whose right operand is contracted on its LAST axis, into the zero accumulator, read at an entry.

  On the extended reals a `tpu.matmul` of an `[M, K]` left operand and an `[N, K]` right operand (`x · wᵀ`: the
  contraction on both operands' second axis, no batch axis), accumulated into the zero splat, is at entry `(p, q)`
  the inner product of row `p` of the left operand with row `q` of the right one, `∑ₖ l(p, k) · r(q, k)`: no rounding,
  no order of accumulation. The dimension record is kept abstract; what is asked of it is that it contracts one axis of
  extent `K` and reads its operands at `(p, k)` and `(q, k)` — four facts a concrete record gives by unfolding.
  Imports only the library.
-/
import Idealize.ShloMosaic.PureOps.Ideal.Laws
import Idealize.ShloMosaic.Lib.ValueIdx

namespace Idealize.ShloMosaic.MatmulRowsByRowsOf

open Idealize.ShloMosaic Idealize.ShloMosaic.ValueIdx

/-- `matmul D prec l r 0` at `(p, q)` is `∑ k, l (p, k) * r (q, k)`. -/
theorem matmul_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![M, K]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsByRowsOf
-- ==== Proof.KernelPayload.lean ====
/-
  What the kernel body computes, entry by entry, on the extended reals.

  The body projects the token's query, key and value rows against the three weight matrices (each `[768, 768]`, one row
  per head coordinate), multiplies query and key projections entrywise, sums each head's 64 products through a 0/1
  grouping matrix, scales by 1/8, turns the logit into the softmax weight `1 / (1 + 2047 · e^(-s))`, spreads that weight
  back over the head's 64 coordinates through the transposed grouping matrix, and forms the two output rows: the
  weighted value (for cache slot 0) and the value times 1/2048 (for every other slot).
-/
import proofs.«143996_j86268713108249_2_alg».proof.Proof.Gen.KernelIdeal.Skeleton
import proofs.«143996_j86268713108249_2_alg».proof.Proof.Spec
import proofs.«143996_j86268713108249_2_alg».proof.Proof.LibMatmulRowsByCols
import proofs.«143996_j86268713108249_2_alg».proof.Proof.LibMatmulRowsByRowsOf
import Idealize.ShloMosaic.Lib.ValueIdx
import Idealize.ShloMosaic.Lib.ValueLayout
import Idealize.ShloMosaic.Lib.Pipeline.Value
import Idealize.ShloMosaic.PureOps.Ideal.Laws

noncomputable section

namespace Cert.FreshCache.KernelSide

open Cert.KernelIdeal Cert.KernelIdeal.Gen Idealize.ShloMosaic Idealize.ShloMosaic.ValueIdx Cert.FreshCache

/-! ## The three contractions' index maps -/

/-- A token row against a weight matrix, contracted on both operands' embedding axis. -/
abbrev DProj := dot_S1x768_S768x768_S1x768_1_1_0_0_n_n
/-- The 768 products against the `[768, 12]` grouping matrix. -/
abbrev DGroup := dot_S1x768_S768x12_S1x12_1_0_0_1_n_n
/-- The 12 weights against the `[12, 768]` transposed grouping matrix. -/
abbrev DSpread := dot_S1x12_S12x768_S1x768_1_0_0_1_n_n

theorem proj_l0 (j : S1x768.Idx) (q : DProj.contr.Idx) : (DProj.lhsIdx j q 0).val = (j 0).val := by
  unfold DotDims.lhsIdx
  rw [dif_neg (show ¬(0 : Fin S1x768.rank) ∈ DProj.lhsBatch by decide), dif_pos (show (0 : Fin S1x768.rank) ∈ DProj.lhsNonContracting by decide)]
  rfl
theorem proj_l1 (j : S1x768.Idx) (q : DProj.contr.Idx) : (DProj.lhsIdx j q 1).val = (q ⟨0, by decide⟩).val :=
  DProj.lhsIdx_val_of_single rfl j q
theorem proj_r0 (j : S1x768.Idx) (q : DProj.contr.Idx) : (DProj.rhsIdx j q 0).val = (j 1).val := by
  unfold DotDims.rhsIdx
  rw [dif_neg (show ¬(0 : Fin S768x768.rank) ∈ DProj.rhsBatch by decide), dif_pos (show (0 : Fin S768x768.rank) ∈ DProj.rhsNonContracting by decide)]
  rfl
theorem proj_r1 (j : S1x768.Idx) (q : DProj.contr.Idx) : (DProj.rhsIdx j q 1).val = (q ⟨0, by decide⟩).val :=
  DProj.rhsIdx_val_of_single rfl j q

theorem group_l0 (j : S1x12.Idx) (q : DGroup.contr.Idx) : (DGroup.lhsIdx j q 0).val = (j 0).val := by
  unfold DotDims.lhsIdx
  rw [dif_neg (show ¬(0 : Fin S1x768.rank) ∈ DGroup.lhsBatch by decide), dif_pos (show (0 : Fin S1x768.rank) ∈ DGroup.lhsNonContracting by decide)]
  rfl
theorem group_l1 (j : S1x12.Idx) (q : DGroup.contr.Idx) : (DGroup.lhsIdx j q 1).val = (q ⟨0, by decide⟩).val :=
  DGroup.lhsIdx_val_of_single rfl j q
theorem group_r0 (j : S1x12.Idx) (q : DGroup.contr.Idx) : (DGroup.rhsIdx j q 0).val = (q ⟨0, by decide⟩).val :=
  DGroup.rhsIdx_val_of_single rfl j q
theorem group_r1 (j : S1x12.Idx) (q : DGroup.contr.Idx) : (DGroup.rhsIdx j q 1).val = (j 1).val := by
  unfold DotDims.rhsIdx
  rw [dif_neg (show ¬(1 : Fin S768x12.rank) ∈ DGroup.rhsBatch by decide), dif_pos (show (1 : Fin S768x12.rank) ∈ DGroup.rhsNonContracting by decide)]
  rfl

theorem spread_l0 (j : S1x768.Idx) (q : DSpread.contr.Idx) : (DSpread.lhsIdx j q 0).val = (j 0).val := by
  unfold DotDims.lhsIdx
  rw [dif_neg (show ¬(0 : Fin S1x12.rank) ∈ DSpread.lhsBatch by decide), dif_pos (show (0 : Fin S1x12.rank) ∈ DSpread.lhsNonContracting by decide)]
  rfl
theorem spread_l1 (j : S1x768.Idx) (q : DSpread.contr.Idx) : (DSpread.lhsIdx j q 1).val = (q ⟨0, by decide⟩).val :=
  DSpread.lhsIdx_val_of_single rfl j q
theorem spread_r0 (j : S1x768.Idx) (q : DSpread.contr.Idx) : (DSpread.rhsIdx j q 0).val = (q ⟨0, by decide⟩).val :=
  DSpread.rhsIdx_val_of_single rfl j q
theorem spread_r1 (j : S1x768.Idx) (q : DSpread.contr.Idx) : (DSpread.rhsIdx j q 1).val = (j 1).val := by
  unfold DotDims.rhsIdx
  rw [dif_neg (show ¬(1 : Fin S12x768.rank) ∈ DSpread.rhsBatch by decide), dif_pos (show (1 : Fin S12x768.rank) ∈ DSpread.rhsNonContracting by decide)]
  rfl

/-! ## One projection -/

/-- Entry `j` of a token row (loaded as a `[1, 1, 768]` block) projected against a `[768, 768]` weight matrix: the
    inner product of the token with weight row `j`. -/
theorem projRow_at (x : Vec Ideal S1x1x768 .f32) (w : Vec Ideal S768x768 .f32) (j : Fin 768) :
    matmul DProj (some .fp32) (shapeCast S1x768 x shapeCasts_S1x1x768_S1x768 : FVec Ideal S1x768 .f32)
        (shapeCast S768x768 w shapeCasts_S768x768_S768x768 : FVec Ideal S768x768 .f32)
        (constant (F := Ideal) S1x768 .f32 0x00000000#32) (ix2 (0 : Fin 1) j)
      = ∑ e : Fin 768, x (ix3 (0 : Fin 1) (0 : Fin 1) e) * w (ix2 j e) := by
  refine (MatmulRowsByRowsOf.matmul_zero_apply DProj rfl rfl proj_l0 proj_l1 proj_r0 proj_r1 _ _ _ (0 : Fin 1) j).trans ?_
  refine Finset.sum_congr rfl fun e _ => ?_
  rw [shapeCast_self, shapeCast_1ab_ab_apply]

/-- The value projection the body keeps. -/
theorem pay3_at (x2 : Vec Ideal S1x1x768 .f32) (x5 : Vec Ideal S768x768 .f32) (j : Fin 768) :
    k0_pay3 (F := Ideal) x2 x5 (ix2 (0 : Fin 1) j) = ∑ e : Fin 768, x2 (ix3 (0 : Fin 1) (0 : Fin 1) e) * x5 (ix2 j e) :=
  projRow_at x2 x5 j

/-! ## The softmax weight per head -/

/-- The row of 768 products of the query and key projections. -/
def prodRow (x0 x1 : Vec Ideal S1x1x768 .f32) (x3 x4 : Vec Ideal S768x768 .f32) : FVec Ideal S1x768 .f32 :=
  mulf (matmul DProj (some .fp32) (shapeCast S1x768 x0 shapeCasts_S1x1x768_S1x768 : FVec Ideal S1x768 .f32)
        (shapeCast S768x768 x3 shapeCasts_S768x768_S768x768 : FVec Ideal S768x768 .f32) (constant (F := Ideal) S1x768 .f32 0x00000000#32))
    (matmul DProj (some .fp32) (shapeCast S1x768 x1 shapeCasts_S1x1x768_S1x768 : FVec Ideal S1x768 .f32)
        (shapeCast S768x768 x4 shapeCasts_S768x768_S768x768 : FVec Ideal S768x768 .f32) (constant (F := Ideal) S1x768 .f32 0x00000000#32))

/-- Head `h`'s unscaled logit as the body forms it: the 768 products summed against column `h` of the grouping matrix. -/
theorem grouped_at (x0 x1 : Vec Ideal S1x1x768 .f32) (x3 x4 : Vec Ideal S768x768 .f32) (x6 : Vec Ideal S768x12 .f32) (h : Fin 12) :
    matmul DGroup (some .fp32) (prodRow x0 x1 x3 x4) (shapeCast S768x12 x6 shapeCasts_S768x12_S768x12 : FVec Ideal S768x12 .f32)
        (constant (F := Ideal) S1x12 .f32 0x00000000#32) (ix2 (0 : Fin 1) h)
      = ∑ j : Fin 768, ((∑ e : Fin 768, x0 (ix3 (0 : Fin 1) (0 : Fin 1) e) * x3 (ix2 j e))
            * (∑ e : Fin 768, x1 (ix3 (0 : Fin 1) (0 : Fin 1) e) * x4 (ix2 j e))) * x6 (ix2 j h) := by
  refine (MatmulRowsByCols.matmul_zero_apply DGroup rfl rfl group_l0 group_l1 group_r0 group_r1 _ _ _ (0 : Fin 1) h).trans ?_
  refine Finset.sum_congr rfl fun j _ => ?_
  rw [shapeCast_self]
  unfold prodRow
  rw [mulf_apply, projRow_at, projRow_at]

/-- The softmax weight the body keeps, per head: `1 / (1 + 2047 · e^(0 - s))` at the scaled logit `s`. -/
theorem pay4_at (x0 x1 : Vec Ideal S1x1x768 .f32) (x3 x4 : Vec Ideal S768x768 .f32) (x6 : Vec Ideal S768x12 .f32) (h : Fin 12) :
    k0_pay4 (F := Ideal) x0 x1 x3 x4 x6 (ix2 (0 : Fin 1) h)
      = weight0 ((∑ j : Fin 768, ((∑ e : Fin 768, x0 (ix3 (0 : Fin 1) (0 : Fin 1) e) * x3 (ix2 j e))
            * (∑ e : Fin 768, x1 (ix3 (0 : Fin 1) (0 : Fin 1) e) * x4 (ix2 j e))) * x6 (ix2 j h))
          * Ideal.ofBits .f32 0x3E000000#32) := by
  unfold weight0
  exact congrArg (fun s : EReal => Ideal.div (Ideal.ofBits .f32 0x3F800000#32)
      (Ideal.ofBits .f32 0x3F800000#32 + Ideal.ofBits .f32 0x44FFE000#32
        * Ideal.exp (Ideal.ofBits .f32 0x00000000#32 - s * Ideal.ofBits .f32 0x3E000000#32)))
    (grouped_at x0 x1 x3 x4 x6 h)

/-! ## The two output rows -/

/-- Every row but the first of a block: the value projection times 1/2048, whatever the row. -/
theorem pay1_at (v : FVec Ideal S1x768 .f32) (r : Fin 512) (j : Fin 768) :
    k0_pay1 (F := Ideal) v (ix3 (0 : Fin 1) r j) = v (ix2 (0 : Fin 1) j) * Ideal.ofBits .f32 0x3A000000#32 := by
  unfold k0_pay1
  refine (shapeCast_ab_1ab_apply _ _ (0 : Fin 1) r j).trans ?_
  refine (broadcastTo_1b_ab_apply _ _ r j).trans ?_
  rw [shapeCast_self]
  rfl

/-- The row written for cache slot 0: each head's weight, spread over the head's coordinates through the transposed
    grouping matrix, times the value projection. -/
theorem pay2_at (v : FVec Ideal S1x768 .f32) (a : FVec Ideal S1x12 .f32) (x7 : Vec Ideal S12x768 .f32) (j : Fin 768) :
    k0_pay2 (F := Ideal) v a x7 (ix3 (0 : Fin 1) (0 : Fin 1) j)
      = (∑ h : Fin 12, a (ix2 (0 : Fin 1) h) * x7 (ix2 h j)) * v (ix2 (0 : Fin 1) j) := by
  unfold k0_pay2
  refine (shapeCast_apply _ _ (ix3 (0 : Fin 1) (0 : Fin 1) j) (ix1 j) (by
    rw [Shape.rowMajor_val_one, Shape.rowMajor_val_three]
    show j.val = (0 * 1 + 0) * 768 + j.val
    omega)).trans ?_
  refine (shapeCast_1a_a_apply _ _ j).trans ?_
  refine (mulf_apply _ _ _).trans ?_
  refine congrArg (· * v (ix2 (0 : Fin 1) j)) ?_
  refine (MatmulRowsByCols.matmul_zero_apply DSpread rfl rfl spread_l0 spread_l1 spread_r0 spread_r1 _ _ _ (0 : Fin 1) j).trans ?_
  refine Finset.sum_congr rfl fun h _ => ?_
  rw [shapeCast_self]

end Cert.FreshCache.KernelSide

end
-- ==== Proof.LibStoreOverlay.lean ====
/-
  The newest store of a list of stores, made through a unit-stride rectangle, read at one element.

  What a list of stores (newest first) leaves in a buffer is, element by element, the payload of the newest store whose
  rectangle holds the element. For a newest store through the rectangle of offsets `off` and sizes `size`: an element whose
  coordinates are `off a + x a` on every axis reads the payload at `x` (`canon_cons_unit_of_mem`); an element that misses
  the rectangle on some axis — below the offset, or at or past offset plus size — reads what the older stores left
  (`canon_cons_unit_of_not_mem`). With them a list of overlapping stores (a fill, then tiles stored over it) is read by
  arithmetic on the coordinates alone.
-/
import Idealize.ShloMosaic.Lib.Pipeline.Value

namespace Idealize.ShloMosaic.StoreOverlay

variable {Val : EltTy → Type} [∀ e, Nonempty (Val e)] {S : Shape} {e : EltTy}

/-- Inside the newest store's rectangle, at local position `x`, the contents are its payload at `x`. -/
theorem canon_cons_unit_of_mem (off size : Fin S.rank → Nat) (inb)
    (w : (Rect.unit off size inb).shape.Idx → Val e) (L : List (View.Piece Val S e)) (y : S.Idx)
    (x : (Rect.unit off size inb).shape.Idx) (hx : ∀ a, (y a).val = off a + (x a).val) :
    View.canon (⟨Rect.unit off size inb, w⟩ :: L) y = w x := by
  have : y = (Rect.unit off size inb).emb x := funext fun a => Fin.ext (by rw [Rect.emb_apply, hx a]; simp)
  rw [this, View.canon_cons_emb]

/-- Off the newest store's rectangle — missing it on axis `a` — the contents are what the older stores left. -/
theorem canon_cons_unit_of_not_mem (off size : Fin S.rank → Nat) (inb)
    (w : (Rect.unit off size inb).shape.Idx → Val e) (L : List (View.Piece Val S e)) (y : S.Idx)
    (a : Fin S.rank) (ha : (y a).val < off a ∨ off a + size a ≤ (y a).val) :
    View.canon (⟨Rect.unit off size inb, w⟩ :: L) y = View.canon L y :=
  View.canon_cons_of_not_mem _ _ (fun h => by have := (Rect.mem_set_unit (inb := inb)).mp h a; omega)

end Idealize.ShloMosaic.StoreOverlay
-- ==== Proof.KernelCases.lean ====
/-
  What one grid point leaves in the output block, by the point's case.

  Every point first fills its `[1, 512, 768]` block with the value projection times 1/2048, row after row. A point whose
  second grid coordinate is zero (its block holds cache slot 0) then overwrites the block's first row with the weighted
  value. So the block is the fill everywhere, except — at such a point — on its first row.
-/
import proofs.«143996_j86268713108249_2_alg».proof.Proof.Gen.KernelIdeal.Frame
import proofs.«143996_j86268713108249_2_alg».proof.Proof.KernelPayload
import proofs.«143996_j86268713108249_2_alg».proof.Proof.LibStoreOverlay

set_option maxRecDepth 16384

noncomputable section

namespace Cert.FreshCache.KernelSide

open Cert.KernelIdeal Cert.KernelIdeal.Gen Idealize.ShloMosaic Idealize.ShloMosaic.TcCoe Idealize.ShloMosaic.Tactic
  Idealize.ShloMosaic.ValueIdx Cert.FreshCache

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point off cache slot 0: its one store fills the whole block. -/
theorem out_B (c : Dev nD) (i : grid0.Coords) (arg2 : Memref sig .tc .vmem S1x1x768 .f32) (harg2 : arg2.IsWhole) (arg3 : Memref sig .tc .vmem S1x1x768 .f32) (harg3 : arg3.IsWhole) (arg4 : Memref sig .tc .vmem S1x1x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S768x12 .f32) (harg8 : arg8.IsWhole) (arg9 : Memref sig .tc .vmem S12x768 .f32) (harg9 : arg9.IsWhole) (arg10 : Memref sig .tc .vmem S1x512x768 .f32) (harg10 : arg10.IsWhole) (hc0 : ¬cond0_0 i)
    (x0 : Vec F S1x1x768 .f32) (x1 : Vec F S1x1x768 .f32) (x2 : Vec F S1x1x768 .f32) (x3 : Vec F S768x768 .f32) (x4 : Vec F S768x768 .f32) (x5 : Vec F S768x768 .f32) (x6 : Vec F S768x12 .f32) (x7 : Vec F S12x768 .f32) :
    out0_B_8 (F := F) c i arg2 harg2 arg3 harg3 arg4 harg4 arg5 harg5 arg6 harg6 arg7 harg7 arg8 harg8 arg9 harg9 arg10 harg10 hc0 x0 x1 x2 x3 x4 x5 x6 x7 = k0_pay1 (k0_pay3 x2 x5) := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x768) hz3, View.ld_unit_zero (S := S768x768) hz2, View.ld_unit_zero (S := S768x12) hz2, View.ld_unit_zero (S := S12x768) hz2]

/-- A point on cache slot 0, first row of its block: the later store's payload. -/
theorem out_A_first (c : Dev nD) (i : grid0.Coords) (arg2 : Memref sig .tc .vmem S1x1x768 .f32) (harg2 : arg2.IsWhole) (arg3 : Memref sig .tc .vmem S1x1x768 .f32) (harg3 : arg3.IsWhole) (arg4 : Memref sig .tc .vmem S1x1x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S768x12 .f32) (harg8 : arg8.IsWhole) (arg9 : Memref sig .tc .vmem S12x768 .f32) (harg9 : arg9.IsWhole) (arg10 : Memref sig .tc .vmem S1x512x768 .f32) (harg10 : arg10.IsWhole) (hc0 : cond0_0 i)
    (x0 : Vec F S1x1x768 .f32) (x1 : Vec F S1x1x768 .f32) (x2 : Vec F S1x1x768 .f32) (x3 : Vec F S768x768 .f32) (x4 : Vec F S768x768 .f32) (x5 : Vec F S768x768 .f32) (x6 : Vec F S768x12 .f32) (x7 : Vec F S12x768 .f32) (j : Fin 768) :
    out0_A_8 (F := F) c i arg2 harg2 arg3 harg3 arg4 harg4 arg5 harg5 arg6 harg6 arg7 harg7 arg8 harg8 arg9 harg9 arg10 harg10 hc0 x0 x1 x2 x3 x4 x5 x6 x7 (ix3 (0 : Fin 1) (0 : Fin 512) j)
      = k0_pay2 (k0_pay3 x2 x5) (k0_pay4 x0 x1 x3 x4 x6) x7 (ix3 (0 : Fin 1) (0 : Fin 1) j) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S1x1x768) hz3, View.ld_unit_zero (S := S768x768) hz2, View.ld_unit_zero (S := S768x12) hz2, View.ld_unit_zero (S := S12x768) hz2]
  exact StoreOverlay.canon_cons_unit_of_mem _ _ _ _ _ (ix3 (0 : Fin 1) (0 : Fin 512) j) (ix3 (0 : Fin 1) (0 : Fin 1) j)
    (fun a => by
      match a with
      | ⟨0, _⟩ => rfl
      | ⟨1, _⟩ => rfl
      | ⟨2, _⟩ => exact (Nat.zero_add _).symm)

/-- A point on cache slot 0, any later row of its block: the first store's fill survives. -/
theorem out_A_rest (c : Dev nD) (i : grid0.Coords) (arg2 : Memref sig .tc .vmem S1x1x768 .f32) (harg2 : arg2.IsWhole) (arg3 : Memref sig .tc .vmem S1x1x768 .f32) (harg3 : arg3.IsWhole) (arg4 : Memref sig .tc .vmem S1x1x768 .f32) (harg4 : arg4.IsWhole) (arg5 : Memref sig .tc .vmem S768x768 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S768x12 .f32) (harg8 : arg8.IsWhole) (arg9 : Memref sig .tc .vmem S12x768 .f32) (harg9 : arg9.IsWhole) (arg10 : Memref sig .tc .vmem S1x512x768 .f32) (harg10 : arg10.IsWhole) (hc0 : cond0_0 i)
    (x0 : Vec F S1x1x768 .f32) (x1 : Vec F S1x1x768 .f32) (x2 : Vec F S1x1x768 .f32) (x3 : Vec F S768x768 .f32) (x4 : Vec F S768x768 .f32) (x5 : Vec F S768x768 .f32) (x6 : Vec F S768x12 .f32) (x7 : Vec F S12x768 .f32) (r : Fin 512) (hr : r.val ≠ 0) (j : Fin 768) :
    out0_A_8 (F := F) c i arg2 harg2 arg3 harg3 arg4 harg4 arg5 harg5 arg6 harg6 arg7 harg7 arg8 harg8 arg9 harg9 arg10 harg10 hc0 x0 x1 x2 x3 x4 x5 x6 x7 (ix3 (0 : Fin 1) r j)
      = k0_pay1 (k0_pay3 x2 x5) (ix3 (0 : Fin 1) r j) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S1x1x768) hz3, View.ld_unit_zero (S := S768x768) hz2, View.ld_unit_zero (S := S768x12) hz2, View.ld_unit_zero (S := S12x768) hz2]
  refine (StoreOverlay.canon_cons_unit_of_not_mem _ _ _ _ _ (ix3 (0 : Fin 1) r j) (1 : Fin 3) (Or.inr ?_)).trans ?_
  · show 0 + 1 ≤ r.val
    omega
  · exact congrFun (View.canon_unit_zero hz3 _ _) _

end Cert.FreshCache.KernelSide

end
-- ==== Proof.Attend.lean ====
/-
  Dense softmax attention of one head over a cache of 2048 slots whose slot 0 holds the new token and whose other slots
  are zero — the long way round, as a program that materialises the whole cache computes it: every score, the row
  maximum (folded from -∞, then joined with -∞ once more), the shifted exponentials, their sum from 0, the quotients,
  and the weighted sum of the cached values.

  `0x00000000` is 0, `0x3E000000` is 1/8, `0xFF800000` is -∞.
-/
import proofs.«143996_j86268713108249_2_alg».proof.Proof.Spec

noncomputable section

namespace Cert.FreshCache

open Idealize.ShloMosaic Idealize.ShloMosaic.ValueIdx

/-- A head's cache: the projection `p` at slot 0, zero at every other slot. -/
def cache (p : Fin 64 → EReal) (s : Fin 2048) (d : Fin 64) : EReal :=
  if s.val = 0 then p d else Ideal.ofBits .f32 0x00000000#32

/-- The scaled score of cached query row `sq` against cached key row `sk`. -/
def score (pq pk : Fin 64 → EReal) (sq sk : Fin 2048) : EReal :=
  (∑ d : Fin 64, cache pq sq d * cache pk sk d) * Ideal.ofBits .f32 0x3E000000#32

/-- The maximum of row `sq`'s scores. -/
def rowMax (pq pk : Fin 64 → EReal) (sq : Fin 2048) : EReal :=
  max (Ideal.ofBits .f32 0xFF800000#32)
    ((Finset.univ : Finset (Fin 2048)).fold max (Ideal.ofBits .f32 0xFF800000#32) (fun sk => score pq pk sq sk))

/-- The exponential of a score shifted by its row's maximum. -/
def expo (pq pk : Fin 64 → EReal) (sq sk : Fin 2048) : EReal :=
  Ideal.exp (score pq pk sq sk - rowMax pq pk sq)

/-- Row `sq`'s normaliser. -/
def norm (pq pk : Fin 64 → EReal) (sq : Fin 2048) : EReal :=
  Ideal.ofBits .f32 0x00000000#32 + ∑ sk : Fin 2048, expo pq pk sq sk

/-- Coordinate `d` of the attention output of row `sq`. -/
def attend (pq pk pv : Fin 64 → EReal) (sq : Fin 2048) (d : Fin 64) : EReal :=
  ∑ sk : Fin 2048, Ideal.div (expo pq pk sq sk) (norm pq pk sq) * cache pv sk d

end Cert.FreshCache

end
-- ==== Proof.SoftmaxFresh.lean ====
/-
  Softmax attention of one head over a cache whose slot 0 holds the new token and whose other 2047 slots are zero,
  in closed form.

  With finite projections, row 0 of the scores is the logit `s = ⟨q, k⟩ / 8` at slot 0 and `0` at every other slot;
  any other row is all zeros, because its query row is zero. For a row that is `a` at slot 0 and `c` elsewhere the
  maximum is `max a c`, the shifted exponentials are `e^(a - m)` and `e^(c - m)`, the normaliser is
  `e^(a - m) + 2047 · e^(c - m)`, and since only slot 0 carries a nonzero value row the output is
  `e^(a - m) / (e^(a - m) + 2047 · e^(c - m)) · v`. At `a = s, c = 0` that quotient is `1 / (1 + 2047 · e^(-s))`
  whatever `m` is (divide through by `e^(s - m)`); at `a = c = 0` it is `1 / 2048`.

  Everything is computed on the reals and coerced to the extended reals once, at the end of each step.
-/
import proofs.«143996_j86268713108249_2_alg».proof.Proof.Attend

noncomputable section

namespace Cert.FreshCache

open Idealize.ShloMosaic

/-! ### The six float words as extended reals -/

theorem w_zero : Ideal.ofBits .f32 0x00000000#32 = 0 := by
  simp [Ideal.ofBits, Ideal.ieee]

theorem w_eighth : Ideal.ofBits .f32 0x3E000000#32 = ((1/8 : ℝ) : EReal) := by
  simp [Ideal.ofBits, Ideal.ieee, -EReal.coe_mul]; norm_num

theorem w_one : Ideal.ofBits .f32 0x3F800000#32 = ((1 : ℝ) : EReal) := by
  simp [Ideal.ofBits, Ideal.ieee, -EReal.coe_mul]; norm_num

theorem w_2047 : Ideal.ofBits .f32 0x44FFE000#32 = ((2047 : ℝ) : EReal) := by
  simp [Ideal.ofBits, Ideal.ieee, -EReal.coe_mul]; norm_num

theorem w_inv2048 : Ideal.ofBits .f32 0x3A000000#32 = ((1/2048 : ℝ) : EReal) := by
  simp [Ideal.ofBits, Ideal.ieee, -EReal.coe_mul]; norm_num

theorem w_neginf : Ideal.ofBits .f32 0xFF800000#32 = ⊥ := by
  simp [Ideal.ofBits, Ideal.ieee]

/-! ### Sums -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family over the 2048 slots that is `x` at slot 0 and `y` at the other 2047 sums to `x + 2047 · y`. -/
theorem sum_split (x y : ℝ) : (∑ sk : Fin 2048, (if sk.val = 0 then x else y)) = x + 2047 * y := by
  rw [Fin.sum_univ_succ]
  simp

/-! ### A row whose scores are `a` at slot 0 and `c` elsewhere -/

section Row

variable (pq pk pv : Fin 64 → EReal) (sq : Fin 2048) (a c : ℝ)
  (hs : ∀ sk : Fin 2048, score pq pk sq sk = ((if sk.val = 0 then a else c : ℝ) : EReal))

include hs

/-- Its maximum is `max a c`: every score is below it, and slot 0 or slot 1 attains it. -/
theorem rowMax_eq : rowMax pq pk sq = ((max a c : ℝ) : EReal) := by
  unfold rowMax
  rw [w_neginf]
  have hfold : (Finset.univ : Finset (Fin 2048)).fold max ⊥ (fun sk => score pq pk sq sk) = ((max a c : ℝ) : EReal) := by
    apply le_antisymm
    · rw [Finset.fold_max_le]
      refine ⟨bot_le, fun sk _ => ?_⟩
      rw [hs sk, EReal.coe_le_coe_iff]
      split_ifs
      · exact le_max_left _ _
      · exact le_max_right _ _
    · rw [Finset.le_fold_max]
      right
      rcases le_total a c with h | h
      · refine ⟨⟨1, by norm_num⟩, Finset.mem_univ _, ?_⟩
        rw [hs, EReal.coe_le_coe_iff]
        simp [max_eq_right h]
      · refine ⟨⟨0, by norm_num⟩, Finset.mem_univ _, ?_⟩
        rw [hs, EReal.coe_le_coe_iff]
        simp [max_eq_left h]
  rw [hfold]
  exact max_eq_right bot_le

/-- The shifted exponentials. -/
theorem expo_eq (sk : Fin 2048) :
    expo pq pk sq sk = ((if sk.val = 0 then Real.exp (a - max a c) else Real.exp (c - max a c) : ℝ) : EReal) := by
  unfold expo
  rw [hs sk, rowMax_eq pq pk sq a c hs, ← EReal.coe_sub, Ideal.exp_coe]
  split_ifs <;> rfl

/-- The normaliser. -/
theorem norm_eq :
    norm pq pk sq = ((Real.exp (a - max a c) + 2047 * Real.exp (c - max a c) : ℝ) : EReal) := by
  unfold norm
  rw [w_zero, zero_add]
  simp_rw [expo_eq pq pk sq a c hs]
  rw [← coe_sum, sum_split]

/-- The row's output: only slot 0 carries a nonzero value row. -/
theorem attend_core (d : Fin 64) (v : ℝ) (hv : pv d = (v : EReal)) :
    attend pq pk pv sq d =
      ((Real.exp (a - max a c) * (1 / (Real.exp (a - max a c) + 2047 * Real.exp (c - max a c))) * v : ℝ) : EReal) := by
  have hN : Real.exp (a - max a c) + 2047 * Real.exp (c - max a c) ≠ 0 := by positivity
  unfold attend
  rw [Finset.sum_eq_single (⟨0, by norm_num⟩ : Fin 2048)]
  · rw [expo_eq pq pk sq a c hs, norm_eq pq pk sq a c hs, Ideal.div_coe hN]
    simp only [cache, if_true, hv]
    rw [← EReal.coe_mul, ← EReal.coe_mul]
  · intro sk _ hne
    have h0 : sk.val ≠ 0 := fun h => hne (Fin.ext h)
    simp only [cache, if_neg h0, w_zero, mul_zero]
  · intro h
    exact absurd (Finset.mem_univ _) h

end Row

/-! ### The real identities behind the two rows -/

/-- Dividing numerator and denominator of the first softmax weight by `e^(s - m)`. -/
theorem weight_real (s m : ℝ) :
    Real.exp (s - m) * (1 / (Real.exp (s - m) + 2047 * Real.exp (0 - m))) =
      1 * (1 / (1 + 2047 * Real.exp (0 - s))) := by
  rw [Real.exp_sub, Real.exp_sub, Real.exp_sub, Real.exp_zero]
  have hs : Real.exp s ≠ 0 := (Real.exp_pos s).ne'
  have hm : Real.exp m ≠ 0 := (Real.exp_pos m).ne'
  have h1 : Real.exp s / Real.exp m + 2047 * (1 / Real.exp m) ≠ 0 := by positivity
  have h2 : 1 + 2047 * (1 / Real.exp s) ≠ 0 := by positivity
  field_simp

/-- All logits equal: the uniform weight. -/
theorem uniform_real (v : ℝ) :
    Real.exp (0 - max (0 : ℝ) 0) * (1 / (Real.exp (0 - max (0 : ℝ) 0) + 2047 * Real.exp (0 - max (0 : ℝ) 0))) * v =
      v * (1 / 2048) := by
  rw [max_self, sub_zero, Real.exp_zero]
  norm_num
  ring

/-- The closed form of `weight0` at a finite logit. -/
theorem weight0_coe (s : ℝ) : weight0 (s : EReal) = ((1 * (1 / (1 + 2047 * Real.exp (0 - s))) : ℝ) : EReal) := by
  have h : (1 : ℝ) + 2047 * Real.exp (0 - s) ≠ 0 := by positivity
  unfold weight0
  rw [w_one, w_2047, w_zero, ← EReal.coe_zero, ← EReal.coe_sub, Ideal.exp_coe, ← EReal.coe_mul, ← EReal.coe_add,
    Ideal.div_coe h, ← EReal.coe_mul]

/-! ### The theorem -/

theorem attend_eq (pq pk pv : Fin 64 → EReal)
    (hq : ∀ d, ∃ r : ℝ, pq d = (r : EReal)) (hk : ∀ d, ∃ r : ℝ, pk d = (r : EReal)) (hv : ∀ d, ∃ r : ℝ, pv d = (r : EReal))
    (sq : Fin 2048) (d : Fin 64) :
    attend pq pk pv sq d =
      if sq.val = 0 then weight0 ((∑ d' : Fin 64, pq d' * pk d') * Ideal.ofBits .f32 0x3E000000#32) * pv d
      else pv d * Ideal.ofBits .f32 0x3A000000#32 := by
  choose q hq using hq
  choose k hk using hk
  choose v hv using hv
  -- the logit of the token against itself, a real
  have hS : (∑ d' : Fin 64, pq d' * pk d') * Ideal.ofBits .f32 0x3E000000#32 =
      (((∑ d' : Fin 64, q d' * k d') * (1/8) : ℝ) : EReal) := by
    simp_rw [hq, hk, ← EReal.coe_mul]
    rw [← coe_sum, w_eighth, ← EReal.coe_mul]
  by_cases h0 : sq.val = 0
  · -- row 0: the logit at slot 0, zero logits elsewhere
    have hs : ∀ sk : Fin 2048, score pq pk sq sk =
        ((if sk.val = 0 then (∑ d' : Fin 64, q d' * k d') * (1/8) else 0 : ℝ) : EReal) := by
      intro sk
      unfold score cache
      by_cases hk0 : sk.val = 0
      · simp only [if_pos h0, if_pos hk0]
        exact hS
      · simp only [if_neg hk0, w_zero, mul_zero, Finset.sum_const_zero, zero_mul, EReal.coe_zero]
    rw [attend_core pq pk pv sq _ _ hs d (v d) (hv d), if_pos h0, hS, weight0_coe, hv d, ← EReal.coe_mul,
      weight_real]
  · -- any other row: the query is zero, every logit is zero
    have hs : ∀ sk : Fin 2048, score pq pk sq sk = ((if sk.val = 0 then (0 : ℝ) else 0 : ℝ) : EReal) := by
      intro sk
      unfold score cache
      simp only [if_neg h0, w_zero, zero_mul, Finset.sum_const_zero, ite_self, EReal.coe_zero]
    rw [attend_core pq pk pv sq _ _ hs d (v d) (hv d), if_neg h0, uniform_real, hv d, w_inv2048, ← EReal.coe_mul]

end Cert.FreshCache

end
-- ==== Proof.GroupSums.lean ====
/-
  Regrouping the 768 concatenated coordinates by head, and the closed form of the attention output put together.

  A concatenated coordinate `j` is `64 · head + lane`; `joinOf` is the inverse of `j ↦ (headOf j, laneOf j)`. A sum
  against the 0/1 matrix `[headOf j = h]` therefore either picks out one head's entry (summing over heads) or restricts
  to the 64 coordinates of one head (summing over coordinates). A projection of finite inputs is finite, being a finite
  sum of products of reals; so the closed form of softmax over the fresh cache applies to the three projections of a
  token, and what it gives is, literally, the specification's output entry.
-/
import proofs.«143996_j86268713108249_2_alg».proof.Proof.SoftmaxFresh

noncomputable section

namespace Cert.FreshCache

open Idealize.ShloMosaic Idealize.ShloMosaic.ValueIdx

/-! ### Head and lane of a concatenated coordinate -/

/-- The concatenated coordinate of lane `d` of head `h`. -/
def joinOf (h : Fin 12) (d : Fin 64) : Fin 768 := ⟨h.val * 64 + d.val, by have := h.isLt; have := d.isLt; omega⟩

theorem headOf_joinOf (h : Fin 12) (d : Fin 64) : headOf (joinOf h d) = h := by
  apply Fin.ext
  have := d.isLt
  simp only [headOf, joinOf]
  omega

theorem laneOf_joinOf (h : Fin 12) (d : Fin 64) : laneOf (joinOf h d) = d := by
  apply Fin.ext
  have := d.isLt
  simp only [laneOf, joinOf]
  omega

theorem joinOf_head_lane (j : Fin 768) : joinOf (headOf j) (laneOf j) = j := by
  apply Fin.ext
  simp only [headOf, laneOf, joinOf]
  omega

/-! ### Sums against the 0/1 head-grouping matrix -/

/-- Summing over heads picks the entry of `j`'s own head. -/
theorem sum_spread (a : Fin 12 → EReal) (j : Fin 768) :
    ∑ h : Fin 12, a h * (if headOf j = h then (1 : EReal) else 0) = a (headOf j) := by
  simp only [mul_ite, mul_one, mul_zero]
  rw [Finset.sum_ite_eq]
  simp

/-- Summing over coordinates keeps the 64 coordinates of head `h`. -/
theorem sum_group (f : Fin 768 → EReal) (h : Fin 12) :
    ∑ j : Fin 768, f j * (if headOf j = h then (1 : EReal) else 0) = ∑ d : Fin 64, f (joinOf h d) := by
  simp only [mul_ite, mul_one, mul_zero]
  rw [← Finset.sum_filter]
  refine Finset.sum_nbij' (fun j => laneOf j) (fun d => joinOf h d) ?_ ?_ ?_ ?_ ?_
  · intro j _
    exact Finset.mem_univ _
  · intro d _
    rw [Finset.mem_filter]
    exact ⟨Finset.mem_univ _, headOf_joinOf h d⟩
  · intro j hj
    rw [Finset.mem_filter] at hj
    rw [← hj.2]
    exact joinOf_head_lane j
  · intro d _
    exact laneOf_joinOf h d
  · intro j hj
    rw [Finset.mem_filter] at hj
    rw [← hj.2, joinOf_head_lane]

/-! ### Projections of finite inputs are finite -/

theorem proj_real (x : SX.Idx → EReal) (w : SW.Idx → EReal)
    (hx : ∀ i, ∃ r : ℝ, x i = (r : EReal)) (hw : ∀ i, ∃ r : ℝ, w i = (r : EReal))
    (b : Fin 4) (h : Fin 12) (d : Fin 64) : ∃ r : ℝ, proj x w b h d = (r : EReal) := by
  choose rx hrx using hx
  choose rw' hrw using hw
  refine ⟨∑ e : Fin 768, rx (ix3 b 0 e) * rw' (ix3 h d e), ?_⟩
  unfold proj
  rw [coe_sum]
  simp_rw [hrx, hrw, EReal.coe_mul]

/-! ### The attention output of a token's three projections is the specification's entry -/

theorem out_of_attend (x0 x1 x2 : SX.Idx → EReal) (x3 x4 x5 : SW.Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (b : Fin 4) (s : Fin 2048) (j : Fin 768) :
    attend (proj x0 x3 b (headOf j)) (proj x1 x4 b (headOf j)) (proj x2 x5 b (headOf j)) s (laneOf j) =
      outAt x0 x1 x2 x3 x4 x5 b s j := by
  rw [attend_eq _ _ _ (proj_real x0 x3 h0 h3 b (headOf j)) (proj_real x1 x4 h1 h4 b (headOf j))
    (proj_real x2 x5 h2 h5 b (headOf j))]
  rfl

end Cert.FreshCache

end
-- ==== Proof.KernelBlock.lean ====
/-
  One grid point's two rows in terms of the function the certificate states.

  The body sees the token's three rows, the three weight matrices laid out with one row per (head, coordinate) pair —
  row `j` of a matrix is head `j / 64`, coordinate `j % 64` —, and the two 0/1 grouping matrices whose entry is 1 exactly
  where the row's head is the column's. Under those readings the value projection at `j` is `proj` at head `j / 64`,
  coordinate `j % 64`; the 768 query·key products summed against a grouping column are the head's 64 products, so the
  scaled sum is the head's logit; and the 12 weights summed against a grouping row pick the weight of the row's head.
-/
import proofs.«143996_j86268713108249_2_alg».proof.Proof.KernelPayload
import proofs.«143996_j86268713108249_2_alg».proof.Proof.GroupSums

noncomputable section

namespace Cert.FreshCache.KernelSide

open Cert.KernelIdeal Cert.KernelIdeal.Gen Idealize.ShloMosaic Idealize.ShloMosaic.ValueIdx Cert.FreshCache

variable (x0 x1 x2 : Vec Ideal S1x1x768 .f32) (x3 x4 x5 : Vec Ideal S768x768 .f32) (x6 : Vec Ideal S768x12 .f32)
  (x7 : Vec Ideal S12x768 .f32) (q k v : SX.Idx → EReal) (wq wk wv : SW.Idx → EReal) (b : Fin 4)

/-- A token row against a weight matrix laid out one row per (head, coordinate): entry `j` is the projection at head
    `j / 64`, coordinate `j % 64`. -/
theorem row_eq_proj (x : Vec Ideal S1x1x768 .f32) (w : Vec Ideal S768x768 .f32) (a : SX.Idx → EReal) (wa : SW.Idx → EReal)
    (hx : ∀ e : Fin 768, x (ix3 (0 : Fin 1) (0 : Fin 1) e) = a (ix3 b (0 : Fin 1) e))
    (hw : ∀ (j e : Fin 768), w (ix2 j e) = wa (ix3 (headOf j) (laneOf j) e)) (j : Fin 768) :
    (∑ e : Fin 768, x (ix3 (0 : Fin 1) (0 : Fin 1) e) * w (ix2 j e)) = proj a wa b (headOf j) (laneOf j) := by
  unfold proj
  exact Finset.sum_congr rfl fun e _ => by rw [hx e, hw j e]

/-- The value projection the body keeps. -/
theorem value_at (hx2 : ∀ e : Fin 768, x2 (ix3 (0 : Fin 1) (0 : Fin 1) e) = v (ix3 b (0 : Fin 1) e))
    (hx5 : ∀ (j e : Fin 768), x5 (ix2 j e) = wv (ix3 (headOf j) (laneOf j) e)) (j : Fin 768) :
    k0_pay3 (F := Ideal) x2 x5 (ix2 (0 : Fin 1) j) = proj v wv b (headOf j) (laneOf j) :=
  (pay3_at x2 x5 j).trans (row_eq_proj b x2 x5 v wv hx2 hx5 j)

/-- The softmax weight the body keeps, per head. -/
theorem weight_at (hx0 : ∀ e : Fin 768, x0 (ix3 (0 : Fin 1) (0 : Fin 1) e) = q (ix3 b (0 : Fin 1) e))
    (hx1 : ∀ e : Fin 768, x1 (ix3 (0 : Fin 1) (0 : Fin 1) e) = k (ix3 b (0 : Fin 1) e))
    (hx3 : ∀ (j e : Fin 768), x3 (ix2 j e) = wq (ix3 (headOf j) (laneOf j) e))
    (hx4 : ∀ (j e : Fin 768), x4 (ix2 j e) = wk (ix3 (headOf j) (laneOf j) e))
    (hx6 : ∀ (j : Fin 768) (h : Fin 12), x6 (ix2 j h) = if headOf j = h then (1 : EReal) else 0) (h : Fin 12) :
    k0_pay4 (F := Ideal) x0 x1 x3 x4 x6 (ix2 (0 : Fin 1) h) = weight0 (logit q k wq wk b h) := by
  rw [pay4_at]
  unfold logit
  refine congrArg (fun s : EReal => weight0 (s * Ideal.ofBits .f32 0x3E000000#32)) ?_
  have e1 : ∀ j : Fin 768, ((∑ e : Fin 768, x0 (ix3 (0 : Fin 1) (0 : Fin 1) e) * x3 (ix2 j e))
        * (∑ e : Fin 768, x1 (ix3 (0 : Fin 1) (0 : Fin 1) e) * x4 (ix2 j e))) * x6 (ix2 j h)
      = (proj q wq b (headOf j) (laneOf j) * proj k wk b (headOf j) (laneOf j)) * (if headOf j = h then (1 : EReal) else 0) :=
    fun j => by rw [row_eq_proj b x0 x3 q wq hx0 hx3 j, row_eq_proj b x1 x4 k wk hx1 hx4 j, hx6 j h]
  rw [Finset.sum_congr rfl fun j _ => e1 j,
    sum_group (fun j => proj q wq b (headOf j) (laneOf j) * proj k wk b (headOf j) (laneOf j)) h]
  exact Finset.sum_congr rfl fun d _ => by rw [headOf_joinOf, laneOf_joinOf]

/-- The row a point on cache slot 0 writes first in its block. -/
theorem first_row_at (hx0 : ∀ e : Fin 768, x0 (ix3 (0 : Fin 1) (0 : Fin 1) e) = q (ix3 b (0 : Fin 1) e))
    (hx1 : ∀ e : Fin 768, x1 (ix3 (0 : Fin 1) (0 : Fin 1) e) = k (ix3 b (0 : Fin 1) e))
    (hx2 : ∀ e : Fin 768, x2 (ix3 (0 : Fin 1) (0 : Fin 1) e) = v (ix3 b (0 : Fin 1) e))
    (hx3 : ∀ (j e : Fin 768), x3 (ix2 j e) = wq (ix3 (headOf j) (laneOf j) e))
    (hx4 : ∀ (j e : Fin 768), x4 (ix2 j e) = wk (ix3 (headOf j) (laneOf j) e))
    (hx5 : ∀ (j e : Fin 768), x5 (ix2 j e) = wv (ix3 (headOf j) (laneOf j) e))
    (hx6 : ∀ (j : Fin 768) (h : Fin 12), x6 (ix2 j h) = if headOf j = h then (1 : EReal) else 0)
    (hx7 : ∀ (h : Fin 12) (j : Fin 768), x7 (ix2 h j) = if headOf j = h then (1 : EReal) else 0) (j : Fin 768) :
    k0_pay2 (F := Ideal) (k0_pay3 x2 x5) (k0_pay4 x0 x1 x3 x4 x6) x7 (ix3 (0 : Fin 1) (0 : Fin 1) j)
      = weight0 (logit q k wq wk b (headOf j)) * proj v wv b (headOf j) (laneOf j) := by
  rw [pay2_at, value_at x2 x5 v wv b hx2 hx5 j]
  refine congrArg (· * proj v wv b (headOf j) (laneOf j)) ?_
  have e1 : ∀ h : Fin 12, k0_pay4 (F := Ideal) x0 x1 x3 x4 x6 (ix2 (0 : Fin 1) h) * x7 (ix2 h j)
      = weight0 (logit q k wq wk b h) * (if headOf j = h then (1 : EReal) else 0) :=
    fun h => by rw [weight_at x0 x1 x3 x4 x6 q k wq wk b hx0 hx1 hx3 hx4 hx6 h, hx7 h j]
  rw [Finset.sum_congr rfl fun h _ => e1 h, sum_spread (fun h => weight0 (logit q k wq wk b h)) j]

/-- Every other row of every block. -/
theorem fill_row_at (hx2 : ∀ e : Fin 768, x2 (ix3 (0 : Fin 1) (0 : Fin 1) e) = v (ix3 b (0 : Fin 1) e))
    (hx5 : ∀ (j e : Fin 768), x5 (ix2 j e) = wv (ix3 (headOf j) (laneOf j) e)) (r : Fin 512) (j : Fin 768) :
    k0_pay1 (F := Ideal) (k0_pay3 x2 x5) (ix3 (0 : Fin 1) r j)
      = proj v wv b (headOf j) (laneOf j) * Ideal.ofBits .f32 0x3A000000#32 := by
  rw [pay1_at, value_at x2 x5 v wv b hx2 hx5 j]

end Cert.FreshCache.KernelSide

end
-- ==== Proof.KernelHost.lean ====
/-
  The arrays the kernel region finds that host operations computed before it, read entry by entry.

  Three of them are the projection weights with the head axis and the per-head coordinate axis merged: entry
  `(j, e)` of the merged array is entry `(j / 64, j % 64, e)` of the weights, because both sit at the same
  row-major position `j * 768 + e = ((j / 64) * 64 + j % 64) * 768 + e`.

  The other two are the 0/1 matrix that groups the 768 concatenated coordinates by head, and its transpose: entry
  `(j, h)` is one when coordinate `j` belongs to head `h`, that is when `j / 64 = h`, and zero otherwise. The
  program computes `j / 64` as a floor division on 32-bit words (a signed quotient, corrected by one when the signs
  differ and the remainder is not zero); for `0 ≤ j < 768` and divisor 64 no correction happens and the word is
  `j / 64`, which is checked over all 768 values.
-/
import proofs.«143996_j86268713108249_2_alg».proof.Proof.Gen.KernelIdeal.Frame
import proofs.«143996_j86268713108249_2_alg».proof.Proof.Spec
import Idealize.ShloMosaic.Lib.ValueIdx
import Idealize.ShloMosaic.Lib.Pipeline.Value
import Idealize.ShloMosaic.Lib.StableHlo.Run
import Idealize.ShloMosaic.Lib.ValueLayout

set_option maxRecDepth 16384

noncomputable section

namespace Cert.FreshCache.KernelSide

open Cert.KernelIdeal Cert.KernelIdeal.Gen Cert.FreshCache
open Idealize.ShloMosaic Idealize.ShloMosaic.ValueIdx Idealize.ShloMosaic.TcCoe

variable (m : (ℓ : Loc nD τ sig) → Buf (Elt Ideal) ℓ) (c : Dev nD)

/-- The merged weights read at `(j, e)`: the weights at head `j / 64`, coordinate `j % 64`, column `e`. -/
theorem shapeCast_merge (x : SW.Idx → EReal) (hn : SW.ShapeCasts S768x768) (j e : Fin 768) :
    shapeCast S768x768 x hn (ix2 j e) = x (ix3 (headOf j) (laneOf j) e) := by
  refine shapeCast_apply x hn (ix2 j e) (ix3 (headOf j) (laneOf j) e) ?_
  rw [Shape.rowMajor_val_two, Shape.rowMajor_val_three]
  show ((j.val / 64) * 64 + j.val % 64) * 768 + e.val = j.val * 768 + e.val
  have := Nat.div_add_mod j.val 64
  omega

theorem V_v0 (j e : Fin 768) :
    (V (F := Ideal) m c main_v0 : S768x768.Idx → EReal) (ix2 j e)
      = m ((c : Thread nD τ).loc main_arg3) (ix3 (headOf j) (laneOf j) e) := by
  have e0 : (V (F := Ideal) m c main_v0 : S768x768.Idx → EReal)
      = shapeCast S768x768 (m ((c : Thread nD τ).loc main_arg3)) shapeCasts_S12x64x768_S768x768 := by
    dsimp only [Gen.V]
    simp only [Gen.hostOps0, Gen.hostOps0_1, Gen.hostOps0_2, List.flatten_cons, List.flatten_nil, List.append_nil,
      List.cons_append, List.nil_append]
    after_results
    rfl
  rw [e0]
  exact shapeCast_merge _ _ j e

theorem V_v1 (j e : Fin 768) :
    (V (F := Ideal) m c main_v1 : S768x768.Idx → EReal) (ix2 j e)
      = m ((c : Thread nD τ).loc main_arg4) (ix3 (headOf j) (laneOf j) e) := by
  have e0 : (V (F := Ideal) m c main_v1 : S768x768.Idx → EReal)
      = shapeCast S768x768 (m ((c : Thread nD τ).loc main_arg4)) shapeCasts_S12x64x768_S768x768 := by
    dsimp only [Gen.V]
    simp only [Gen.hostOps0, Gen.hostOps0_1, Gen.hostOps0_2, List.flatten_cons, List.flatten_nil, List.append_nil,
      List.cons_append, List.nil_append]
    after_results
    rfl
  rw [e0]
  exact shapeCast_merge _ _ j e

theorem V_v2 (j e : Fin 768) :
    (V (F := Ideal) m c main_v2 : S768x768.Idx → EReal) (ix2 j e)
      = m ((c : Thread nD τ).loc main_arg5) (ix3 (headOf j) (laneOf j) e) := by
  have e0 : (V (F := Ideal) m c main_v2 : S768x768.Idx → EReal)
      = shapeCast S768x768 (m ((c : Thread nD τ).loc main_arg5)) shapeCasts_S12x64x768_S768x768 := by
    dsimp only [Gen.V]
    simp only [Gen.hostOps0, Gen.hostOps0_1, Gen.hostOps0_2, List.flatten_cons, List.flatten_nil, List.append_nil,
      List.cons_append, List.nil_append]
    after_results
    rfl
  rw [e0]
  exact shapeCast_merge _ _ j e

/-- The sign of a two's-complement word as a word: 0, -1 or 1. -/
def signWord (x : BitVec 32) : BitVec 32 := if x = 0 then 0 else if x.msb then -1 else 1

/-- Floor division of a word by 64 as the program spells it: the quotient rounded toward zero, less one when the
    operands' signs differ and the remainder is not zero. -/
def floorDivWord (x : BitVec 32) : BitVec 32 :=
  Scalar.select
    (IntOp.andi (IntOp.cmpi .ne (signWord x) (signWord 64#32)) (IntOp.cmpi .ne (IntOp.remsi .host x 64#32) 0#32))
    (IntOp.subi (IntOp.divsi .host x 64#32) 1#32)
    (IntOp.divsi .host x 64#32)

/-- On the 768 coordinates it is the natural-number quotient: all signs are positive or zero, so no correction. -/
theorem floorDivWord_lane : ∀ j : Fin 768, floorDivWord (BitVec.ofNat 32 j.val) = BitVec.ofNat 32 (j.val / 64) := by
  decide +kernel

/-- Whether coordinate `j`'s head word equals head `h`'s word, as a real: one if `j / 64 = h`, zero otherwise. -/
theorem group_entry (j : Fin 768) (h : Fin 12) :
    FloatOps.uitofp (F := Ideal) .f32
        (IntOp.cmpi .eq (floorDivWord (BitVec.ofNat 32 j.val)) (BitVec.ofNat 32 h.val))
      = if headOf j = h then (1 : EReal) else 0 := by
  rw [floorDivWord_lane j]
  by_cases hh : headOf j = h
  · rw [if_pos hh]
    have hv : j.val / 64 = h.val := congrArg Fin.val hh
    rw [hv]
    show (((IntOp.cmpi .eq (BitVec.ofNat 32 h.val) (BitVec.ofNat 32 h.val)).toNat : ℝ) : EReal) = 1
    simp [IntOp.cmpi]
  · rw [if_neg hh]
    have hne : BitVec.ofNat 32 (j.val / 64) ≠ BitVec.ofNat 32 h.val := by
      intro heq
      apply hh
      apply Fin.ext
      have h1 := congrArg BitVec.toNat heq
      simp only [BitVec.toNat_ofNat] at h1
      have hj := j.isLt
      have hh' := h.isLt
      show j.val / 64 = h.val
      omega
    show (((IntOp.cmpi .eq (BitVec.ofNat 32 (j.val / 64)) (BitVec.ofNat 32 h.val)).toNat : ℝ) : EReal) = 0
    simp [IntOp.cmpi, hne]

set_option maxHeartbeats 4000000 in
/-- The grouping matrix as the host operations leave it, as a function of the index. -/
theorem V_v11_fun :
    (V (F := Ideal) m c main_v11 : S768x12.Idx → EReal)
      = fun i => FloatOps.uitofp (F := Ideal) .f32
          (IntOp.cmpi .eq (floorDivWord (BitVec.ofNat 32 (i 0).val)) (BitVec.ofNat 32 (i 1).val)) := by
  dsimp only [Gen.V]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_cast, cast_eq, id_eq]
  rfl

theorem V_v11 (j : Fin 768) (h : Fin 12) :
    (V (F := Ideal) m c main_v11 : S768x12.Idx → EReal) (ix2 j h) = if headOf j = h then (1 : EReal) else 0 := by
  rw [V_v11_fun]
  exact group_entry j h

set_option maxHeartbeats 4000000 in
/-- The transposed grouping matrix as the host operations leave it. -/
theorem V_v12_fun :
    (V (F := Ideal) m c main_v12 : S12x768.Idx → EReal)
      = transpose S12x768 [1, 0] (fun i : S768x12.Idx => FloatOps.uitofp (F := Ideal) .f32
          (IntOp.cmpi .eq (floorDivWord (BitVec.ofNat 32 (i 0).val)) (BitVec.ofNat 32 (i 1).val)))
          transposes_S768x12_S12x768_1_0 := by
  dsimp only [Gen.V]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_cast, cast_eq, id_eq]
  rfl

theorem V_v12 (h : Fin 12) (j : Fin 768) :
    (V (F := Ideal) m c main_v12 : S12x768.Idx → EReal) (ix2 h j) = if headOf j = h then (1 : EReal) else 0 := by
  rw [V_v12_fun]
  refine (transpose_ix2_apply _ transposes_S768x12_S12x768_1_0 h j).trans ?_
  exact group_entry j h

end Cert.FreshCache.KernelSide

end
-- ==== Proof.KernelCover.lean ====
/-
  Which part of which array each grid point of the kernel's launch touches.

  The launch runs over a 4 × 4 grid, point `t` standing for batch `t / 4` and row chunk `t % 4`. The three token
  arrays are cut into one block per batch; the five weight arrays are each a single block; the result, of shape
  [4, 2048, 768], is cut into blocks of shape [1, 512, 768], and point `t` writes back block (t / 4, t % 4, 0).
  These index maps are decided once over the sixteen points. An element (i₀, i₁, i₂) of the result lies in the block
  of exactly the point 4 · i₀ + i₁ / 512, so every element of the result is written back by some point.
-/
import proofs.«143996_j86268713108249_2_alg».proof.Proof.Gen.KernelIdeal.Value
import Idealize.ShloMosaic.Lib.Pipeline.Value
import Idealize.ShloMosaic.Lib.ValueIdx

noncomputable section

namespace Cert.FreshCache.KernelSide

open Cert.KernelIdeal Cert.KernelIdeal.Gen Idealize.ShloMosaic Idealize.ShloMosaic.TcCoe Idealize.ShloMosaic.ValueIdx

/-! ## The index maps, decided over the grid -/

/-- Window 0's block index at point `t`: the batch `t / 4` on axis 0, block 0 on the other two. -/
theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)

/-- Window 1's block index at point `t`: the batch `t / 4` on axis 0, block 0 on the other two. -/
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

/-- Window 2's block index at point `t`: the batch `t / 4` on axis 0, block 0 on the other two. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- Window 3's block index is (0, 0) at every point: its one block is the whole array. -/
theorem idx3 : ∀ t : Fin cfg0.N, win0_3.index t (0 : Fin 2) = 0 ∧ win0_3.index t (1 : Fin 2) = 0 :=
  (by decide +kernel : ∀ t : Fin grid0.N, _)

/-- Window 4's block index is (0, 0) at every point: its one block is the whole array. -/
theorem idx4 : ∀ t : Fin cfg0.N, win0_4.index t (0 : Fin 2) = 0 ∧ win0_4.index t (1 : Fin 2) = 0 :=
  (by decide +kernel : ∀ t : Fin grid0.N, _)

/-- Window 5's block index is (0, 0) at every point: its one block is the whole array. -/
theorem idx5 : ∀ t : Fin cfg0.N, win0_5.index t (0 : Fin 2) = 0 ∧ win0_5.index t (1 : Fin 2) = 0 :=
  (by decide +kernel : ∀ t : Fin grid0.N, _)

/-- Window 6's block index is (0, 0) at every point: its one block is the whole array. -/
theorem idx6 : ∀ t : Fin cfg0.N, win0_6.index t (0 : Fin 2) = 0 ∧ win0_6.index t (1 : Fin 2) = 0 :=
  (by decide +kernel : ∀ t : Fin grid0.N, _)

/-- Window 7's block index is (0, 0) at every point: its one block is the whole array. -/
theorem idx7 : ∀ t : Fin cfg0.N, win0_7.index t (0 : Fin 2) = 0 ∧ win0_7.index t (1 : Fin 2) = 0 :=
  (by decide +kernel : ∀ t : Fin grid0.N, _)

/-- The result window's block index at point `t`: the batch `t / 4`, the row chunk `t % 4`, block 0 along the
    coordinates. -/
theorem idx8 : ∀ t : Fin cfg0.N, win0_8.index t (0 : Fin 3) = t.val / 4 ∧ win0_8.index t (1 : Fin 3) = t.val % 4 ∧ win0_8.index t (2 : Fin 3) = 0 :=
  (by decide +kernel : ∀ t : Fin grid0.N, _)

/-! ## The result's blocks -/

/-- An element of the result is in point `t`'s block iff each coordinate is in the block's range on its axis. -/
theorem mem_blk8 (t : Fin cfg0.N) (i : S4x2048x768.Idx) :
    i ∈ ((cfg0.win 8).blk t).view.set ↔ ∀ a : Fin 3, win0_8.index t a * S1x512x768.size a ≤ (i a).val ∧ (i a).val < win0_8.index t a * S1x512x768.size a + S1x512x768.size a := by
  show i ∈ ((View.whole main_v13).slice (win0_8.rect t)).set ↔ _
  rw [View.set_slice_whole, Rect.mem_set_unit]
  exact Iff.rfl

/-- Every element of the result is in the block of a point that writes back: the point 4 · i₀ + i₁ / 512. -/
theorem cover8 (i : S4x2048x768.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 768 := (i 2).isLt
  have hN : cfg0.N = 16 := N_0
  let t : Fin cfg0.N := ⟨(i 0).val * 4 + (i 1).val / 512, by rw [hN]; omega⟩
  have ht : t.val = (i 0).val * 4 + (i 1).val / 512 := rfl
  obtain ⟨e0, e1, e2⟩ := idx8 t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 768 ≤ (i 2).val ∧ (i 2).val < win0_8.index t (2 : Fin 3) * 768 + 768; omega

end Cert.FreshCache.KernelSide

end
-- ==== Proof.KernelValue.lean ====
/-
  From the grid's blocks to the output array.

  The pallas grid has sixteen points `t`, one per (token, quarter of the cache): point `t` works on token `t / 4` and
  writes back the `[1, 512, 768]` block holding cache slots `512 · (t % 4) … 512 · (t % 4) + 511` of that token. Its inputs
  are the token's three rows, the three weight matrices whole, and the two grouping matrices whole. Row `r` of the block
  is cache slot `512 · (t % 4) + r`: slot 0 — first row of the blocks with `t % 4 = 0` — carries the weighted value, every
  other slot the value over 2048. So each block is the stated function restricted to it, and since the sixteen blocks
  tile the array, the array after the run is the stated function.
-/
import proofs.«143996_j86268713108249_2_alg».proof.Proof.Gen.KernelIdeal.Value
import proofs.«143996_j86268713108249_2_alg».proof.Proof.KernelCases
import proofs.«143996_j86268713108249_2_alg».proof.Proof.KernelBlock
import proofs.«143996_j86268713108249_2_alg».proof.Proof.KernelHost
import proofs.«143996_j86268713108249_2_alg».proof.Proof.KernelCover

set_option maxRecDepth 16384

noncomputable section

namespace Cert.FreshCache.KernelSide

open Cert.KernelIdeal Cert.KernelIdeal.Gen Cert.KernelIdeal.Value Idealize.ShloMosaic Idealize.ShloMosaic.TcCoe
  Idealize.ShloMosaic.ValueIdx Idealize.SL.Sem Cert.FreshCache
open Idealize.ShloMosaic.Pipeline (Dat)

variable (m : (ℓ : Loc nD τ sig) → Buf (Elt Ideal) ℓ) (ρ : Dev nD → PrngReg)

/-! ## The grid's index maps, decided once over the sixteen points -/

theorem idx_tokens : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem idx_out : ∀ t : Fin cfg0.N,
    win0_8.index t (0 : Fin 3) = t.val / 4 ∧ win0_8.index t (1 : Fin 3) = t.val % 4 ∧ win0_8.index t (2 : Fin 3) = 0 :=
  (by decide +kernel : ∀ t : Fin grid0.N, _)

/-- The token a point works on. -/
def tokenOf (t : Fin cfg0.N) : Fin 4 := ⟨t.val / 4, by have := t.isLt; have : cfg0.N = 16 := N_0; omega⟩
/-- The cache slot a block's row `r` holds at point `t`. -/
def slotOf (t : Fin cfg0.N) (r : Fin 512) : Fin 2048 :=
  ⟨t.val % 4 * 512 + r.val, by have := r.isLt; have : t.val % 4 < 4 := Nat.mod_lt _ (by norm_num); omega⟩

/-! ## The windows' blocks at a point -/

theorem blk_q (c : Dev nD) (t : Fin cfg0.N) (e : Fin 768) :
    (iblk m c 0 t : Vec Ideal S1x1x768 .f32) (ix3 (0 : Fin 1) (0 : Fin 1) e)
      = m ((c : Thread nD τ).loc main_arg0) (ix3 (tokenOf t) (0 : Fin 1) e) := by
  unfold iblk
  rw [View.read_apply]
  show V m c main_arg0 _ = _
  rw [V_main_arg0]
  refine congrArg _ (funext fun a => Fin.ext ?_)
  obtain ⟨⟨e0, e1, e2⟩, -, -⟩ := idx_tokens t
  match a with
  | ⟨0, _⟩ => show win0_0.index t (0 : Fin 3) * 1 + 1 * 0 = t.val / 4; omega
  | ⟨1, _⟩ => show win0_0.index t (1 : Fin 3) * 1 + 1 * 0 = 0; omega
  | ⟨2, _⟩ => show win0_0.index t (2 : Fin 3) * 768 + 1 * e.val = e.val; omega

theorem blk_k (c : Dev nD) (t : Fin cfg0.N) (e : Fin 768) :
    (iblk m c 1 t : Vec Ideal S1x1x768 .f32) (ix3 (0 : Fin 1) (0 : Fin 1) e)
      = m ((c : Thread nD τ).loc main_arg1) (ix3 (tokenOf t) (0 : Fin 1) e) := by
  unfold iblk
  rw [View.read_apply]
  show V m c main_arg1 _ = _
  rw [V_main_arg1]
  refine congrArg _ (funext fun a => Fin.ext ?_)
  obtain ⟨-, ⟨e0, e1, e2⟩, -⟩ := idx_tokens t
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 768 + 1 * e.val = e.val; omega

theorem blk_v (c : Dev nD) (t : Fin cfg0.N) (e : Fin 768) :
    (iblk m c 2 t : Vec Ideal S1x1x768 .f32) (ix3 (0 : Fin 1) (0 : Fin 1) e)
      = m ((c : Thread nD τ).loc main_arg2) (ix3 (tokenOf t) (0 : Fin 1) e) := by
  unfold iblk
  rw [View.read_apply]
  show V m c main_arg2 _ = _
  rw [V_main_arg2]
  refine congrArg _ (funext fun a => Fin.ext ?_)
  obtain ⟨-, -, ⟨e0, e1, e2⟩⟩ := idx_tokens t
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 768 + 1 * e.val = e.val; omega

theorem blk_wq (c : Dev nD) (t : Fin cfg0.N) (j e : Fin 768) :
    (iblk m c 3 t : Vec Ideal S768x768 .f32) (ix2 j e)
      = m ((c : Thread nD τ).loc main_arg3) (ix3 (headOf j) (laneOf j) e) := by
  refine Eq.trans ?_ (V_v0 m c j e)
  unfold iblk
  rw [View.read_apply]
  show V m c main_v0 _ = V m c main_v0 _
  refine congrArg _ (funext fun a => Fin.ext ?_)
  obtain ⟨⟨e0, e1⟩, -, -, -, -⟩ := idx_whole t
  match a with
  | ⟨0, _⟩ => show win0_3.index t (0 : Fin 2) * 768 + 1 * j.val = j.val; omega
  | ⟨1, _⟩ => show win0_3.index t (1 : Fin 2) * 768 + 1 * e.val = e.val; omega

theorem blk_wk (c : Dev nD) (t : Fin cfg0.N) (j e : Fin 768) :
    (iblk m c 4 t : Vec Ideal S768x768 .f32) (ix2 j e)
      = m ((c : Thread nD τ).loc main_arg4) (ix3 (headOf j) (laneOf j) e) := by
  refine Eq.trans ?_ (V_v1 m c j e)
  unfold iblk
  rw [View.read_apply]
  show V m c main_v1 _ = V m c main_v1 _
  refine congrArg _ (funext fun a => Fin.ext ?_)
  obtain ⟨-, ⟨e0, e1⟩, -, -, -⟩ := idx_whole t
  match a with
  | ⟨0, _⟩ => show win0_4.index t (0 : Fin 2) * 768 + 1 * j.val = j.val; omega
  | ⟨1, _⟩ => show win0_4.index t (1 : Fin 2) * 768 + 1 * e.val = e.val; omega

theorem blk_wv (c : Dev nD) (t : Fin cfg0.N) (j e : Fin 768) :
    (iblk m c 5 t : Vec Ideal S768x768 .f32) (ix2 j e)
      = m ((c : Thread nD τ).loc main_arg5) (ix3 (headOf j) (laneOf j) e) := by
  refine Eq.trans ?_ (V_v2 m c j e)
  unfold iblk
  rw [View.read_apply]
  show V m c main_v2 _ = V m c main_v2 _
  refine congrArg _ (funext fun a => Fin.ext ?_)
  obtain ⟨-, -, ⟨e0, e1⟩, -, -⟩ := idx_whole t
  match a with
  | ⟨0, _⟩ => show win0_5.index t (0 : Fin 2) * 768 + 1 * j.val = j.val; omega
  | ⟨1, _⟩ => show win0_5.index t (1 : Fin 2) * 768 + 1 * e.val = e.val; omega

theorem blk_group (c : Dev nD) (t : Fin cfg0.N) (j : Fin 768) (h : Fin 12) :
    (iblk m c 6 t : Vec Ideal S768x12 .f32) (ix2 j h) = if headOf j = h then (1 : EReal) else 0 := by
  refine Eq.trans ?_ (V_v11 m c j h)
  unfold iblk
  rw [View.read_apply]
  show V m c main_v11 _ = V m c main_v11 _
  refine congrArg _ (funext fun a => Fin.ext ?_)
  obtain ⟨-, -, -, ⟨e0, e1⟩, -⟩ := idx_whole t
  match a with
  | ⟨0, _⟩ => show win0_6.index t (0 : Fin 2) * 768 + 1 * j.val = j.val; omega
  | ⟨1, _⟩ => show win0_6.index t (1 : Fin 2) * 12 + 1 * h.val = h.val; omega

theorem blk_spread (c : Dev nD) (t : Fin cfg0.N) (h : Fin 12) (j : Fin 768) :
    (iblk m c 7 t : Vec Ideal S12x768 .f32) (ix2 h j) = if headOf j = h then (1 : EReal) else 0 := by
  refine Eq.trans ?_ (V_v12 m c h j)
  unfold iblk
  rw [View.read_apply]
  show V m c main_v12 _ = V m c main_v12 _
  refine congrArg _ (funext fun a => Fin.ext ?_)
  obtain ⟨-, -, -, -, ⟨e0, e1⟩⟩ := idx_whole t
  match a with
  | ⟨0, _⟩ => show win0_7.index t (0 : Fin 2) * 12 + 1 * h.val = h.val; omega
  | ⟨1, _⟩ => show win0_7.index t (1 : Fin 2) * 768 + 1 * j.val = j.val; omega

/-! ## What a point writes back -/

/-- The function of the argument arrays the output array ends at. -/
abbrev result (c : Dev nD) : S4x2048x768.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Row `r`, coordinate `j` of the block point `t` writes back is the stated function at the point's token, the
    row's cache slot and `j`. -/
theorem flushed_at (c : Dev nD) (t : Fin cfg0.N) (r : Fin 512) (j : Fin 768) :
    ((dats m 0 c).flushed 8 t : Vec Ideal S1x512x768 .f32) (ix3 (0 : Fin 1) r j)
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (tokenOf t) (slotOf t r) j := by
  unfold outAt
  by_cases h0 : t.val % 4 = 0
  · rw [flushed8_A m c t h0]
    show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) (ix3 (0 : Fin 1) r j) = _
    by_cases hr : r.val = 0
    · obtain rfl : r = (0 : Fin 512) := Fin.ext hr
      rw [if_pos (show (slotOf t (0 : Fin 512)).val = 0 by show t.val % 4 * 512 + 0 = 0; omega)]
      refine (out_A_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) j).trans ?_
      exact first_row_at (iblk m c 0 t) (iblk m c 1 t) (iblk m c 2 t) (iblk m c 3 t) (iblk m c 4 t) (iblk m c 5 t) (iblk m c 6 t) (iblk m c 7 t)
        _ _ _ _ _ _ (tokenOf t) (blk_q m c t) (blk_k m c t) (blk_v m c t) (blk_wq m c t) (blk_wk m c t) (blk_wv m c t)
        (blk_group m c t) (blk_spread m c t) j
    · rw [if_neg (show ¬(slotOf t r).val = 0 by show ¬(t.val % 4 * 512 + r.val = 0); omega)]
      refine (out_A_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) r hr j).trans ?_
      exact fill_row_at (iblk m c 2 t) (iblk m c 5 t) _ _ (tokenOf t) (blk_v m c t) (blk_wv m c t) r j
  · rw [flushed8_B m c t h0]
    show out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (ix3 (0 : Fin 1) r j) = _
    rw [if_neg (show ¬(slotOf t r).val = 0 by show ¬(t.val % 4 * 512 + r.val = 0); omega)]
    rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t)]
    exact fill_row_at (iblk m c 2 t) (iblk m c 5 t) _ _ (tokenOf t) (blk_v m c t) (blk_wv m c t) r j

/-- So what point `t` writes back is block `t` of the stated function. -/
theorem flushed_eq (c : Dev nD) (t : Fin cfg0.N) :
    (dats m 0 c).flushed 8 t = ((cfg0.win 8).blk t).view.read (Elt Ideal) (result m c) := by
  have key : ∀ (r : Fin 512) (j : Fin 768),
      ((dats m 0 c).flushed 8 t : Vec Ideal S1x512x768 .f32) (ix3 (0 : Fin 1) r j)
        = (((cfg0.win 8).blk t).view.read (Elt Ideal) (result m c) : Vec Ideal S1x512x768 .f32) (ix3 (0 : Fin 1) r j) := by
    intro r j
    refine (flushed_at m c t r j).trans ?_
    have hemb : ((cfg0.win 8).blk t).view.emb (ix3 (0 : Fin 1) r j : S1x512x768.Idx)
        = (ix3 (tokenOf t) (slotOf t r) j : S4x2048x768.Idx) := funext fun a => Fin.ext (by
      obtain ⟨e0, e1, e2⟩ := idx_out t
      match a with
      | ⟨0, _⟩ => show win0_8.index t (0 : Fin 3) * 1 + 1 * 0 = t.val / 4; omega
      | ⟨1, _⟩ => show win0_8.index t (1 : Fin 3) * 512 + 1 * r.val = t.val % 4 * 512 + r.val; omega
      | ⟨2, _⟩ => show win0_8.index t (2 : Fin 3) * 768 + 1 * j.val = j.val; omega)
    refine Eq.trans ?_ (View.read_apply _ _).symm
    show _ = result m c (((cfg0.win 8).blk t).view.emb (ix3 (0 : Fin 1) r j : S1x512x768.Idx))
    exact (congrArg (result m c) hemb).symm
  refine funext fun (y : S1x512x768.Idx) => ?_
  have hy : y = ix3 (0 : Fin 1) (y 1) (y 2) := funext fun a => by
    match a with
    | ⟨0, _⟩ => exact Fin.ext (by have h : (y 0).val < 1 := (y 0).isLt; show (y 0).val = 0; omega)
    | ⟨1, _⟩ => rfl
    | ⟨2, _⟩ => rfl
  exact (congrArg ((dats m 0 c).flushed 8 t : Vec Ideal S1x512x768 .f32) hy).trans
    ((key (y 1) (y 2)).trans
      (congrArg (((cfg0.win 8).blk t).view.read (Elt Ideal) (result m c) : Vec Ideal S1x512x768 .f32) hy).symm)

/-! ## The array after the run -/

/-- Every index of the output array lies in some point's block, so the array ends at the stated function. -/
theorem final (c : Dev nD) : (dats m 0 c).arrAt 8 cfg0.N = result m c :=
  (dats m 0 c).arrAt_eq_of_cover 8 (result m c) (fun t _ => flushed_eq m c t) cover8

/-- The kernel's run, read: the result array at the stated function of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FreshCache.KernelSide

end
-- ==== Proof.LibScatterSet.lean ====
/-
  A host scatter whose body returns the update (`x.at[…].set(v)`) read at ONE element of the operand.

  The scatter is a left fold over the updates in row-major order: update `j` replaces the element it lands on
  (`ScatterDims.resultIdx?`), or is dropped when it lands outside the operand. So an element no update lands on
  keeps the operand's value (`scatter_apply_of_miss`, for any body), and an element some update lands on reads
  that update — provided every update landing there carries the same value (`scatter_set_apply_of_hit`); when
  the landing map is injective that proviso is the single update itself (`scatter_set_apply_of_injective`).
  Nothing here evaluates the fold: the list of updates stays abstract.
-/
import Idealize.ShloMosaic.PureOps

namespace Idealize.ShloMosaic.ScatterSet

variable {α : Type} {s si u : Shape} {w : Nat}

/-- One step of the scatter's fold: update number `n` (row-major) replaces the element it lands on by the body's
    value there, and is dropped when it lands outside the operand. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step` over the updates in row-major order. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i'` leaves `i'` alone. -/
theorem step_of_ne (d : ScatterDims s si u) (f : α → α → α) (idx : IVec si w) (upd : u.Idx → α)
    (r : s.Idx → α) (n : Fin u.numel) (i' : s.Idx)
    (h : d.resultIdx? (u.rowMajor.symm n) idx ≠ some i') : step d f idx upd r n i' = r i' := by
  unfold step
  cases hr : d.resultIdx? (u.rowMajor.symm n) idx with
  | none => rfl
  | some i =>
    have hne : i' ≠ i := fun e => h (by rw [hr, e])
    simp only [if_neg hne]

/-- A "set" step whose update lands on `i'` leaves the update there. -/
theorem step_set_of_eq (d : ScatterDims s si u) (idx : IVec si w) (upd : u.Idx → α)
    (r : s.Idx → α) (n : Fin u.numel) (i' : s.Idx)
    (h : d.resultIdx? (u.rowMajor.symm n) idx = some i') :
    step d (fun _ b => b) idx upd r n i' = upd (u.rowMajor.symm n) := by
  unfold step
  rw [h]
  exact if_pos rfl

/-- A fold over updates none of which lands on `i'` leaves `i'` alone. -/
theorem foldl_of_miss (d : ScatterDims s si u) (f : α → α → α) (idx : IVec si w) (upd : u.Idx → α)
    (i' : s.Idx) : ∀ (l : List (Fin u.numel)) (r : s.Idx → α),
      (∀ n ∈ l, d.resultIdx? (u.rowMajor.symm n) idx ≠ some i') →
      l.foldl (step d f idx upd) r i' = r i'
  | [], _, _ => rfl
  | n :: l, r, h => by
    rw [List.foldl_cons, foldl_of_miss d f idx upd i' l _ fun k hk => h k (List.mem_cons_of_mem _ hk)]
    exact step_of_ne d f idx upd r n i' (h n List.mem_cons_self)

/-- A "set" fold over updates one of which lands on `i'`, all that land there carrying one value, leaves that value. -/
theorem foldl_set_of_hit (d : ScatterDims s si u) (idx : IVec si w) (upd : u.Idx → α) (i' : s.Idx) (v : α) :
    ∀ (l : List (Fin u.numel)) (r : s.Idx → α),
      (∃ n ∈ l, d.resultIdx? (u.rowMajor.symm n) idx = some i') →
      (∀ n ∈ l, d.resultIdx? (u.rowMajor.symm n) idx = some i' → upd (u.rowMajor.symm n) = v) →
      l.foldl (step d (fun _ b => b) idx upd) r i' = v
  | [], _, h, _ => by obtain ⟨_, hn, _⟩ := h; exact absurd hn List.not_mem_nil
  | n :: l, r, h, hv => by
    rw [List.foldl_cons]
    by_cases hl : ∃ k ∈ l, d.resultIdx? (u.rowMajor.symm k) idx = some i'
    · exact foldl_set_of_hit d idx upd i' v l _ hl fun k hk => hv k (List.mem_cons_of_mem _ hk)
    · have hmiss : ∀ k ∈ l, d.resultIdx? (u.rowMajor.symm k) idx ≠ some i' := fun k hk e => hl ⟨k, hk, e⟩
      rw [foldl_of_miss d _ idx upd i' l _ hmiss]
      obtain ⟨k, hk, e⟩ := h
      rcases List.mem_cons.mp hk with rfl | hk'
      · rw [step_set_of_eq d idx upd r k i' e]
        exact hv k List.mem_cons_self e
      · exact absurd e (hmiss k hk')

/-- An element NO update lands on keeps the operand's value, whatever the body. -/
theorem scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [scatter_eq_foldl]
  exact foldl_of_miss d f idx upd i' _ x fun n _ => h _

/-- An element update `j` lands on reads, after a "set" scatter, that update — when every update landing there
    carries the same value. -/
theorem scatter_set_apply_of_hit (d : ScatterDims s si u) (x : s.Idx → α) (idx : IVec si w)
    (upd : u.Idx → α) (i' : s.Idx) (j : u.Idx) (hj : d.resultIdx? j idx = some i')
    (hv : ∀ j' : u.Idx, d.resultIdx? j' idx = some i' → upd j' = upd j) :
    Host.scatter d (fun _ b => b) x idx upd i' = upd j := by
  rw [scatter_eq_foldl]
  refine foldl_set_of_hit d idx upd i' (upd j) _ x ⟨u.rowMajor j, List.mem_finRange _, ?_⟩ fun n _ hn => hv _ hn
  rw [Equiv.symm_apply_apply]; exact hj

/-- The same when the updates land at pairwise distinct elements: a landing map `land` that is injective. -/
theorem scatter_set_apply_of_injective (d : ScatterDims s si u) (x : s.Idx → α) (idx : IVec si w)
    (upd : u.Idx → α) (land : u.Idx → s.Idx) (hland : ∀ j, d.resultIdx? j idx = some (land j))
    (hinj : Function.Injective land) (j : u.Idx) :
    Host.scatter d (fun _ b => b) x idx upd (land j) = upd j :=
  scatter_set_apply_of_hit d x idx upd (land j) j (hland j) fun j' hj' => by
    rw [hland j'] at hj'
    rw [hinj (Option.some.inj hj')]

end Idealize.ShloMosaic.ScatterSet
-- ==== Proof.RefCache.lean ====
/-
  The reference program's three caches read at one element.

  Each cache is the all-zero array of shape [4, 12, 2048, 64] with the [4, 12, 64] array of projections written into
  it along the slot axis at the slot number held in a one-word index array, and that word is 0. Update element
  (b, h, d) therefore lands on element (b, h, 0, d): the three window axes of the update go, in order, to the operand
  axes 0, 1 and 3, and the start along axis 2 is the index word read as a signed integer, 0. This landing map is
  injective, so slot 0 of the cache holds the projection and every other slot keeps the zero it had.

  The projection itself arrives as a matrix product with the weights on the left, transposed and reshaped; read at
  (b, h, d) it is the inner product of the token's 768 coordinates with row (h, d) of the weights.
-/
import proofs.«143996_j86268713108249_2_alg».proof.Proof.Gen.ReferenceIdeal.Read
import proofs.«143996_j86268713108249_2_alg».proof.Proof.Attend
import proofs.«143996_j86268713108249_2_alg».proof.Proof.LibScatterSet

noncomputable section

namespace Cert.FreshCache.RefRead

open Cert.ReferenceIdeal Cert.ReferenceIdeal.Gen Cert.ReferenceIdeal.Read
open Idealize.ShloMosaic Idealize.ShloMosaic.ValueIdx Idealize.ShloMosaic.ScatterSet

/-- An update lands on the element whose every coordinate is its start plus its window coordinate. -/
theorem resultIdx?_eq_some {s si u : Shape} {w : Nat} (D : ScatterDims s si u) (j : u.Idx) (idx : IVec si w)
    (i : s.Idx) (h : ∀ a, D.start j idx a + D.window j a = ((i a).val : Int)) :
    D.resultIdx? j idx = some i := by
  have hpos : ∀ a, 0 ≤ D.start j idx a + D.window j a ∧ D.start j idx a + D.window j a < s.size a := fun a => by
    rw [h a]
    exact ⟨Int.natCast_nonneg _, by exact_mod_cast (i a).isLt⟩
  unfold ScatterDims.resultIdx?
  rw [dif_pos hpos]
  congr 1
  funext a
  apply Fin.ext
  show (D.start j idx a + D.window j a).toNat = (i a).val
  rw [h a]
  exact Int.toNat_natCast _

/-- The scatter record of the three cache writes. -/
abbrev dsc : ScatterDims S4x12x2048x64 S1 S4x12x64 := scatter_S4x12x2048x64_S1_S4x12x64_012_2_2_0

/-- With every index word 0, every start is 0. -/
theorem start_zero (idx : IVec S1 32) (hidx : ∀ i, idx i = 0#32) (j : S4x12x64.Idx) (a : Fin 4) :
    dsc.start j idx a = 0 := by
  unfold ScatterDims.start
  split
  · rw [hidx]; rfl
  · rfl

/-- The window coordinates of update (b, h, d): b, h, nothing on the slot axis, d. -/
theorem window_eq (b : Fin 4) (h : Fin 12) (d : Fin 64) (a : Fin 4) :
    dsc.window (ix3 b h d) a = (ix4 b h (0 : Fin 2048) d a).val := by
  match a with
  | ⟨0, _⟩ =>
    show dsc.window (ix3 b h d) (0 : Fin 4) = b.val
    unfold ScatterDims.window; rw [dif_pos (by decide)]; rfl
  | ⟨1, _⟩ =>
    show dsc.window (ix3 b h d) (1 : Fin 4) = h.val
    unfold ScatterDims.window; rw [dif_pos (by decide)]; rfl
  | ⟨2, _⟩ =>
    show dsc.window (ix3 b h d) (2 : Fin 4) = 0
    unfold ScatterDims.window; rw [dif_neg (by decide)]
  | ⟨3, _⟩ =>
    show dsc.window (ix3 b h d) (3 : Fin 4) = d.val
    unfold ScatterDims.window; rw [dif_pos (by decide)]; rfl

/-- Update (b, h, d) lands on (b, h, 0, d). -/
theorem land_eq (idx : IVec S1 32) (hidx : ∀ i, idx i = 0#32) (b : Fin 4) (h : Fin 12) (d : Fin 64) :
    dsc.resultIdx? (ix3 b h d) idx = some (ix4 b h (0 : Fin 2048) d) :=
  resultIdx?_eq_some dsc _ idx _ fun a => by
    rw [start_zero idx hidx, window_eq, zero_add]

/-- The landing map of the cache write. -/
abbrev land (j : S4x12x64.Idx) : S4x12x2048x64.Idx := ix4 (j 0) (j 1) (0 : Fin 2048) (j 2)

theorem land_of (idx : IVec S1 32) (hidx : ∀ i, idx i = 0#32) (j : S4x12x64.Idx) :
    dsc.resultIdx? j idx = some (land j) :=
  (congrArg (fun j' => dsc.resultIdx? j' idx) (eq_ix3 j)).trans (land_eq idx hidx (j 0) (j 1) (j 2))

theorem land_injective : Function.Injective land := fun j j' e => by
  funext a
  match a with
  | ⟨0, _⟩ => exact congrFun e 0
  | ⟨1, _⟩ => exact congrFun e 1
  | ⟨2, _⟩ => exact congrFun e 3

/-- A zero array with the update written at slot 0, read at one element. -/
theorem scatter_cache (idx : IVec S1 32) (hidx : ∀ i, idx i = 0#32)
    (z : S4x12x2048x64.Idx → EReal) (hz : ∀ i, z i = Ideal.ofBits .f32 0x00000000#32)
    (upd : S4x12x64.Idx → EReal) (b : Fin 4) (h : Fin 12) (s : Fin 2048) (d : Fin 64) :
    Host.scatter dsc (fun _ v => v) z idx upd (ix4 b h s d) = cache (fun d' => upd (ix3 b h d')) s d := by
  unfold cache
  by_cases hs : s.val = 0
  · rw [if_pos hs]
    have hs0 : s = 0 := Fin.ext hs
    rw [hs0]
    exact scatter_set_apply_of_injective dsc z idx upd land (land_of idx hidx) land_injective (ix3 b h d)
  · rw [if_neg hs, scatter_apply_of_miss dsc _ z idx upd (ix4 b h s d) ?_, hz]
    intro j hj
    rw [land_of idx hidx j] at hj
    have e := congrFun (Option.some.inj hj) 2
    exact hs (congrArg Fin.val e).symm

/-- The query projection as the program computes it — weights times token, transposed, reshaped — read at (b, h, d). -/
theorem val_main_v7_at (x : SX.Idx → EReal) (w : SW.Idx → EReal) (b : Fin 4) (h : Fin 12) (d : Fin 64) :
    val_main_v7 (F := Ideal) x w (ix3 b h d) = proj x w b h d := by
  rw [val_main_v7_apply, val_main_v1_apply, val_main_v0_apply]
  unfold proj
  refine Finset.sum_congr rfl fun e _ => ?_
  have hb := b.isLt
  have hh := h.isLt
  have hd := d.isLt
  have el : lidx_main_v0 (idx_main_v1 (idx_main_v7 (ix3 b h d))) e = ix3 h d e := funext fun a => Fin.ext (by
    match a with
    | ⟨0, _⟩ => show ((b.val * 12 + h.val) * 64 + d.val) / 64 % 12 = h.val; omega
    | ⟨1, _⟩ => show ((b.val * 12 + h.val) * 64 + d.val) % 64 = d.val; omega
    | ⟨2, _⟩ => rfl)
  have er : ridx_main_v0 (idx_main_v1 (idx_main_v7 (ix3 b h d))) e = ix3 b 0 e := funext fun a => Fin.ext (by
    match a with
    | ⟨0, _⟩ => show ((b.val * 12 + h.val) * 64 + d.val) / 768 = b.val; omega
    | ⟨1, _⟩ => rfl
    | ⟨2, _⟩ => rfl)
  rw [el, er, mul_comm]

/-- The key projection as the program computes it — weights times token, transposed, reshaped — read at (b, h, d). -/
theorem val_main_v10_at (x : SX.Idx → EReal) (w : SW.Idx → EReal) (b : Fin 4) (h : Fin 12) (d : Fin 64) :
    val_main_v10 (F := Ideal) x w (ix3 b h d) = proj x w b h d := by
  rw [val_main_v10_apply, val_main_v3_apply, val_main_v2_apply]
  unfold proj
  refine Finset.sum_congr rfl fun e _ => ?_
  have hb := b.isLt
  have hh := h.isLt
  have hd := d.isLt
  have el : lidx_main_v2 (idx_main_v3 (idx_main_v10 (ix3 b h d))) e = ix3 h d e := funext fun a => Fin.ext (by
    match a with
    | ⟨0, _⟩ => show ((b.val * 12 + h.val) * 64 + d.val) / 64 % 12 = h.val; omega
    | ⟨1, _⟩ => show ((b.val * 12 + h.val) * 64 + d.val) % 64 = d.val; omega
    | ⟨2, _⟩ => rfl)
  have er : ridx_main_v2 (idx_main_v3 (idx_main_v10 (ix3 b h d))) e = ix3 b 0 e := funext fun a => Fin.ext (by
    match a with
    | ⟨0, _⟩ => show ((b.val * 12 + h.val) * 64 + d.val) / 768 = b.val; omega
    | ⟨1, _⟩ => rfl
    | ⟨2, _⟩ => rfl)
  rw [el, er, mul_comm]

/-- The value projection as the program computes it — weights times token, transposed, reshaped — read at (b, h, d). -/
theorem val_main_v13_at (x : SX.Idx → EReal) (w : SW.Idx → EReal) (b : Fin 4) (h : Fin 12) (d : Fin 64) :
    val_main_v13 (F := Ideal) x w (ix3 b h d) = proj x w b h d := by
  rw [val_main_v13_apply, val_main_v5_apply, val_main_v4_apply]
  unfold proj
  refine Finset.sum_congr rfl fun e _ => ?_
  have hb := b.isLt
  have hh := h.isLt
  have hd := d.isLt
  have el : lidx_main_v4 (idx_main_v5 (idx_main_v13 (ix3 b h d))) e = ix3 h d e := funext fun a => Fin.ext (by
    match a with
    | ⟨0, _⟩ => show ((b.val * 12 + h.val) * 64 + d.val) / 64 % 12 = h.val; omega
    | ⟨1, _⟩ => show ((b.val * 12 + h.val) * 64 + d.val) % 64 = d.val; omega
    | ⟨2, _⟩ => rfl)
  have er : ridx_main_v4 (idx_main_v5 (idx_main_v13 (ix3 b h d))) e = ix3 b 0 e := funext fun a => Fin.ext (by
    match a with
    | ⟨0, _⟩ => show ((b.val * 12 + h.val) * 64 + d.val) / 768 = b.val; omega
    | ⟨1, _⟩ => rfl
    | ⟨2, _⟩ => rfl)
  rw [el, er, mul_comm]

/-- The query cache read at (b, h, s, d). -/
theorem val_main_v9_at (x : SX.Idx → EReal) (w : SW.Idx → EReal) (b : Fin 4) (h : Fin 12) (s : Fin 2048) (d : Fin 64) :
    val_main_v9 (F := Ideal) x w (ix4 b h s d) = cache (proj x w b h) s d := by
  unfold val_main_v9
  rw [scatter_cache (val_main_v8 (F := Ideal)) (fun i => by rw [val_main_v8_apply, val_main_c_apply])
    (val_main_v6 (F := Ideal)) (fun i => by rw [val_main_v6_apply, val_main_cst_apply]; rfl)]
  exact congrArg (fun p => cache p s d) (funext fun d' => val_main_v7_at x w b h d')

/-- The key cache read at (b, h, s, d). -/
theorem val_main_v12_at (x : SX.Idx → EReal) (w : SW.Idx → EReal) (b : Fin 4) (h : Fin 12) (s : Fin 2048) (d : Fin 64) :
    val_main_v12 (F := Ideal) x w (ix4 b h s d) = cache (proj x w b h) s d := by
  unfold val_main_v12
  rw [scatter_cache (val_main_v11 (F := Ideal)) (fun i => by rw [val_main_v11_apply, val_main_c_0_apply])
    (val_main_v6 (F := Ideal)) (fun i => by rw [val_main_v6_apply, val_main_cst_apply]; rfl)]
  exact congrArg (fun p => cache p s d) (funext fun d' => val_main_v10_at x w b h d')

/-- The value cache read at (b, h, s, d). -/
theorem val_main_v15_at (x : SX.Idx → EReal) (w : SW.Idx → EReal) (b : Fin 4) (h : Fin 12) (s : Fin 2048) (d : Fin 64) :
    val_main_v15 (F := Ideal) x w (ix4 b h s d) = cache (proj x w b h) s d := by
  unfold val_main_v15
  rw [scatter_cache (val_main_v14 (F := Ideal)) (fun i => by rw [val_main_v14_apply, val_main_c_1_apply])
    (val_main_v6 (F := Ideal)) (fun i => by rw [val_main_v6_apply, val_main_cst_apply]; rfl)]
  exact congrArg (fun p => cache p s d) (funext fun d' => val_main_v13_at x w b h d')

end Cert.FreshCache.RefRead

end
-- ==== Proof.RefRow.lean ====
/-
  The reference program's result read at one element: it is the long-hand softmax attention of one head over that
  head's cache.

  Element (b, s, j) of the [4, 2048, 768] result is element (b, s, j / 64, j % 64) of the transposed product, that
  is element (b, j / 64, s, j % 64) of the product of the attention weights with the value cache. Reading the
  stages back from there, at explicit coordinates: the weights are the shifted exponentials over their row sum;
  the shift is the row maximum of the scores, folded along the key axis from the initial value and joined once more
  with the same word; a score is the inner product of a query-cache row with a key-cache row, times the scale word.
  No word is evaluated: each appears on both sides.
-/
import proofs.«143996_j86268713108249_2_alg».proof.Proof.RefCache

noncomputable section

namespace Cert.FreshCache.RefRead

open Cert.ReferenceIdeal Cert.ReferenceIdeal.Gen Cert.ReferenceIdeal.Read
open Idealize.ShloMosaic Idealize.ShloMosaic.ValueIdx

variable (x0 x1 x2 : SX.Idx → EReal) (x3 x4 x5 : SW.Idx → EReal)

/-- The scores before scaling: the inner product of query-cache row `sq` with key-cache row `sk`. -/
theorem val_main_v16_at (b : Fin 4) (h : Fin 12) (sq sk : Fin 2048) :
    val_main_v16 (F := Ideal) x0 x1 x3 x4 (ix4 b h sq sk)
      = ∑ d : Fin 64, cache (proj x0 x3 b h) sq d * cache (proj x1 x4 b h) sk d := by
  rw [val_main_v16_apply]
  refine Finset.sum_congr rfl fun k _ => ?_
  have el : lidx_main_v16 (ix4 b h sq sk) k = ix4 b h sq k := funext fun a => Fin.ext (by
    match a with
    | ⟨0, _⟩ => rfl
    | ⟨1, _⟩ => rfl
    | ⟨2, _⟩ => rfl
    | ⟨3, _⟩ => rfl)
  have er : ridx_main_v16 (ix4 b h sq sk) k = ix4 b h sk k := funext fun a => Fin.ext (by
    match a with
    | ⟨0, _⟩ => rfl
    | ⟨1, _⟩ => rfl
    | ⟨2, _⟩ => rfl
    | ⟨3, _⟩ => rfl)
  rw [el, er, val_main_v9_at, val_main_v12_at]

/-- The scaled scores. -/
theorem val_main_v18_at (b : Fin 4) (h : Fin 12) (sq sk : Fin 2048) :
    val_main_v18 (F := Ideal) x0 x1 x3 x4 (ix4 b h sq sk) = score (proj x0 x3 b h) (proj x1 x4 b h) sq sk := by
  rw [val_main_v18_apply, val_main_v16_at, val_main_v17_apply, val_main_cst_2_apply]
  rfl

/-- Removing the key axis of the score array leaves the [4, 12, 2048] array of rows. -/
theorem reduces_keys : S4x12x2048x2048.Reduces [3] S4x12x2048 := by decide

/-- Row (b, h, sq) with key coordinate `k` put back is (b, h, sq, k). -/
theorem lift_keys (b : Fin 4) (h : Fin 12) (sq : Fin 2048) (k : Fin (S4x12x2048x2048.size 3)) :
    reduces_keys.lift (ix3 b h sq) k = ix4 b h sq (⟨k.val, k.isLt⟩ : Fin 2048) := by
  funext c; apply Fin.ext
  fin_cases c <;> rfl

/-- The fold of the maximum along the key axis, from the initial word. -/
theorem val_main_v19_at (b : Fin 4) (h : Fin 12) (sq : Fin 2048) :
    val_main_v19 (F := Ideal) x0 x1 x3 x4 (ix3 b h sq)
      = (Finset.univ : Finset (Fin 2048)).fold max (Ideal.ofBits .f32 0xFF800000#32)
          (fun sk => score (proj x0 x3 b h) (proj x1 x4 b h) sq sk) := by
  unfold val_main_v19
  rw [Host.reduce_eq_fold_single (FloatOps.maximumf (F := Ideal) (φ := .f32)) _ _ _ reduces_keys _]
  have hf : (val_main_v18 (F := Ideal) x0 x1 x3 x4 ∘ reduces_keys.lift (ix3 b h sq))
      = fun sk : Fin 2048 => score (proj x0 x3 b h) (proj x1 x4 b h) sq sk := funext fun k => by
    rw [Function.comp_apply, lift_keys, val_main_v18_at]
    rfl
  exact congrArg (fun f => Finset.fold max (Ideal.ofBits .f32 0xFF800000#32) f (Finset.univ : Finset (Fin 2048))) hf

/-- The row maximum: the fold joined once more with the initial word. -/
theorem val_main_v21_at (b : Fin 4) (h : Fin 12) (sq : Fin 2048) :
    val_main_v21 (F := Ideal) x0 x1 x3 x4 (ix3 b h sq) = rowMax (proj x0 x3 b h) (proj x1 x4 b h) sq := by
  rw [val_main_v21_apply, val_main_v20_apply, val_main_cst_4_apply, val_main_v19_at]
  rfl

/-- The row maximum spread back along the key axis. -/
theorem val_main_v23_at (b : Fin 4) (h : Fin 12) (sq sk : Fin 2048) :
    val_main_v23 (F := Ideal) x0 x1 x3 x4 (ix4 b h sq sk) = rowMax (proj x0 x3 b h) (proj x1 x4 b h) sq := by
  rw [val_main_v23_apply, val_main_v22_apply]
  have e : idx_main_v22 (idx_main_v23 (ix4 b h sq sk)) = ix3 b h sq := funext fun a => Fin.ext (by
    match a with
    | ⟨0, _⟩ => rfl
    | ⟨1, _⟩ => rfl
    | ⟨2, _⟩ => rfl)
  rw [e, val_main_v21_at]

/-- The shifted exponentials. -/
theorem val_main_v25_at (b : Fin 4) (h : Fin 12) (sq sk : Fin 2048) :
    val_main_v25 (F := Ideal) x0 x1 x3 x4 (ix4 b h sq sk) = expo (proj x0 x3 b h) (proj x1 x4 b h) sq sk := by
  rw [val_main_v25_apply, val_main_v24_apply, val_main_v18_at, val_main_v23_at]
  rfl

/-- The row sums of the exponentials, from the initial word. -/
theorem val_main_v26_at (b : Fin 4) (h : Fin 12) (sq : Fin 2048) :
    val_main_v26 (F := Ideal) x0 x1 x3 x4 (ix3 b h sq) = norm (proj x0 x3 b h) (proj x1 x4 b h) sq := by
  rw [val_main_v26_apply, val_main_cst_5_apply]
  unfold norm
  refine congrArg (Ideal.ofBits .f32 0x00000000#32 + ·) (Finset.sum_congr rfl fun k _ => ?_)
  have e : idx_main_v26 (ix3 b h sq) k = ix4 b h sq k := funext fun a => Fin.ext (by
    match a with
    | ⟨0, _⟩ => rfl
    | ⟨1, _⟩ => rfl
    | ⟨2, _⟩ => rfl
    | ⟨3, _⟩ => rfl)
  rw [e, val_main_v25_at]

/-- The row sums spread back along the key axis. -/
theorem val_main_v28_at (b : Fin 4) (h : Fin 12) (sq sk : Fin 2048) :
    val_main_v28 (F := Ideal) x0 x1 x3 x4 (ix4 b h sq sk) = norm (proj x0 x3 b h) (proj x1 x4 b h) sq := by
  rw [val_main_v28_apply, val_main_v27_apply]
  have e : idx_main_v27 (idx_main_v28 (ix4 b h sq sk)) = ix3 b h sq := funext fun a => Fin.ext (by
    match a with
    | ⟨0, _⟩ => rfl
    | ⟨1, _⟩ => rfl
    | ⟨2, _⟩ => rfl)
  rw [e, val_main_v26_at]

/-- The attention weights. -/
theorem val_main_v29_at (b : Fin 4) (h : Fin 12) (sq sk : Fin 2048) :
    val_main_v29 (F := Ideal) x0 x1 x3 x4 (ix4 b h sq sk)
      = Ideal.div (expo (proj x0 x3 b h) (proj x1 x4 b h) sq sk) (norm (proj x0 x3 b h) (proj x1 x4 b h) sq) := by
  rw [val_main_v29_apply, val_main_v25_at, val_main_v28_at]
  rfl

/-- The weights times the value cache. -/
theorem val_main_v30_at (b : Fin 4) (h : Fin 12) (sq : Fin 2048) (d : Fin 64) :
    val_main_v30 (F := Ideal) x0 x1 x2 x3 x4 x5 (ix4 b h sq d)
      = attend (proj x0 x3 b h) (proj x1 x4 b h) (proj x2 x5 b h) sq d := by
  rw [val_main_v30_apply]
  unfold attend
  refine Finset.sum_congr rfl fun k _ => ?_
  have el : lidx_main_v30 (ix4 b h sq d) k = ix4 b h sq k := funext fun a => Fin.ext (by
    match a with
    | ⟨0, _⟩ => rfl
    | ⟨1, _⟩ => rfl
    | ⟨2, _⟩ => rfl
    | ⟨3, _⟩ => rfl)
  have er : ridx_main_v30 (ix4 b h sq d) k = ix4 b h k d := funext fun a => Fin.ext (by
    match a with
    | ⟨0, _⟩ => rfl
    | ⟨1, _⟩ => rfl
    | ⟨2, _⟩ => rfl
    | ⟨3, _⟩ => rfl)
  rw [el, er, val_main_v29_at, val_main_v15_at]

/-- The result at (b, s, j): head j / 64, lane j % 64 of the attention output of row s. -/
theorem val_main_v32_at (b : Fin 4) (s : Fin 2048) (j : Fin 768) :
    val_main_v32 (F := Ideal) x0 x1 x2 x3 x4 x5 (ix3 b s j)
      = attend (proj x0 x3 b (headOf j)) (proj x1 x4 b (headOf j)) (proj x2 x5 b (headOf j)) s (laneOf j) := by
  rw [val_main_v32_apply, val_main_v31_apply]
  have hb := b.isLt
  have hs := s.isLt
  have hj := j.isLt
  have e : idx_main_v31 (idx_main_v32 (ix3 b s j)) = ix4 b (headOf j) s (laneOf j) := funext fun a => Fin.ext (by
    match a with
    | ⟨0, _⟩ => show ((b.val * 2048 + s.val) * 768 + j.val) / 1572864 = b.val; omega
    | ⟨1, _⟩ => show ((b.val * 2048 + s.val) * 768 + j.val) / 64 % 12 = j.val / 64; omega
    | ⟨2, _⟩ => show ((b.val * 2048 + s.val) * 768 + j.val) / 768 % 2048 = s.val; omega
    | ⟨3, _⟩ => show ((b.val * 2048 + s.val) * 768 + j.val) % 64 = j.val % 64; omega)
  rw [e, val_main_v30_at]

end Cert.FreshCache.RefRead

end
-- ==== Proof.RefValue.lean ====
/-
  The reference program's whole result is the specified output array.

  At each index (b, s, j) the result is the long-hand softmax attention of head j / 64 over that head's fresh cache,
  read at row s and lane j % 64; with finite inputs the closed form of that attention is the specification's entry
  at (b, s, j). Two arrays that agree at every index are equal.
-/
import proofs.«143996_j86268713108249_2_alg».proof.Proof.RefRow
import proofs.«143996_j86268713108249_2_alg».proof.Proof.GroupSums

noncomputable section

namespace Cert.FreshCache.RefRead

open Cert.ReferenceIdeal Cert.ReferenceIdeal.Gen Cert.ReferenceIdeal.Read
open Idealize.ShloMosaic Idealize.ShloMosaic.ValueIdx

theorem ref_eq (x0 x1 x2 : SX.Idx → EReal) (x3 x4 x5 : SW.Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) :
    Cert.ReferenceIdeal.Read.val_main_v32 (F := Ideal) x0 x1 x2 x3 x4 x5 = out x0 x1 x2 x3 x4 x5 := by
  refine funext fun (i : SO.Idx) => ?_
  obtain ⟨b, s, j, rfl⟩ : ∃ (b : Fin 4) (s : Fin 2048) (j : Fin 768), i = ix3 b s j := ⟨i 0, i 1, i 2, eq_ix3 i⟩
  rw [val_main_v32_at, out_of_attend x0 x1 x2 x3 x4 x5 h0 h1 h2 h3 h4 h5]
  rfl

end Cert.FreshCache.RefRead

end
-- ==== Proof.Finite.lean ====
/-
  From the precondition to real entries.

  The precondition says that, for each of the six argument arrays, "the absolute value of every entry is strictly
  below positive infinity", taken as a conjunction over the whole array, holds. In the extended reals the only
  values whose absolute value is not below positive infinity are the two infinities, so every entry of every
  argument is a real number.
-/
import proofs.«143996_j86268713108249_2_alg».proof.Defs
import proofs.«143996_j86268713108249_2_alg».proof.Proof.Gen.Pre_finite_inputs
import proofs.«143996_j86268713108249_2_alg».proof.Proof.Gen.KernelIdeal
import Idealize.ShloMosaic.Lib.ReduceAll
import Idealize.ShloMosaic.Lib.ValueIdx

noncomputable section

namespace Cert.FreshCache.KernelSide

open Idealize.ShloMosaic Idealize.ShloMosaic.ValueIdx

instance : Subsingleton Cert.Pre_finite_inputs.S_.Idx := ⟨fun a b => funext fun d => d.elim0⟩

/-- The word `0x7F800000` is positive infinity. -/
theorem inf_word : Ideal.ofBits .f32 0x7F800000#32 = (⊤ : EReal) := by
  simp [Ideal.ofBits, Ideal.ieee]

/-- An extended real whose absolute value is strictly below positive infinity is a real number: both infinities have
    absolute value positive infinity. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- If "every entry has absolute value below positive infinity", reduced by `and` over the whole array, came out one,
    then every entry is a real number. -/
theorem real_of_all {s : Shape} {axes : List (Fin s.rank)} (x : FVec Ideal s .f32)
    (hb : Cert.Pre_finite_inputs.S_.BroadcastsInDim s ![]) (hr : s.ReducesTo axes Cert.Pre_finite_inputs.S_)
    (h0 : 0 < Cert.Pre_finite_inputs.S_.numel)
    (h : Host.reduce IntOp.andi
          (cmpf .olt (Host.absf x) (broadcastInDim s ![] hb (constant (F := Ideal) Cert.Pre_finite_inputs.S_ .f32 0x7F800000#32)))
          (constantI Cert.Pre_finite_inputs.S_ 1 1#1) hr h0 ix0 = 1#1) (i : s.Idx) :
    ∃ r : ℝ, x i = (r : EReal) :=
  real_of_abs_lt (x i) (Host.reduce_andi_all _ _ hr h0 ix0 h i)

theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h0 := congrFun (h c) ix0
  dsimp only [Cert.Pre_finite_inputs.fn, Cert.Pre_finite_inputs.fn_part1, andi] at h0
  simp only [IntOp.andi_eq_one] at h0
  obtain ⟨⟨⟨⟨⟨h0, h1⟩, h2⟩, h3⟩, h4⟩, h5⟩ := h0
  exact ⟨real_of_all _ _ _ _ h0, real_of_all _ _ _ _ h1, real_of_all _ _ _ _ h2, real_of_all _ _ _ _ h3,
    real_of_all _ _ _ _ h4, real_of_all _ _ _ _ h5⟩

end Cert.FreshCache.KernelSide

end
-- ==== Proof.lean ====
/-
  The fresh-cache attention kernel against its dense reference.

  Both programs compute, on the extended reals and for finite inputs, one function of the six argument arrays
  (`Cert.FreshCache.out`): row 0 of every batch is the softmax weight `1 / (1 + 2047 · e^(-s))` of the token's own
  logit `s` times its value projection, every other row the value projection divided by 2048.

  The kernel reaches it in closed form: its body's arithmetic is read entry by entry, each of the sixteen grid points
  writes back one `[1, 512, 768]` block of that function, and the blocks fill the array. The reference reaches it the
  long way — a zeroed cache with the token scattered into slot 0, all 2048 × 2048 scores, a softmax by row maximum,
  shifted exponentials and their sum, and the weighted sum of the cached values — and the two agree because all but one
  key and value rows are zero: the row maximum is `max s 0`, the normaliser `e^(s-m) + 2047 e^(-m)`, and the quotient
  `e^(s-m) / (e^(s-m) + 2047 e^(-m)) = 1 / (1 + 2047 e^(-s))` for real `s`; a zero query row has a uniform softmax. The
  logits are real because the inputs are finite, which is where the precondition is used.

  The three frames are the programs' runs with the results dropped; nothing was rewritten by the idealization, so
  `preserves` has nothing to state.
-/
import proofs.«143996_j86268713108249_2_alg».proof.Defs
import proofs.«143996_j86268713108249_2_alg».proof.Proof.Gen.Kernel
import proofs.«143996_j86268713108249_2_alg».proof.Proof.Gen.Kernel.Skeleton
import proofs.«143996_j86268713108249_2_alg».proof.Proof.Gen.Kernel.Launch
import proofs.«143996_j86268713108249_2_alg».proof.Proof.Gen.Kernel.Points
import proofs.«143996_j86268713108249_2_alg».proof.Proof.Gen.Kernel.Frame
import proofs.«143996_j86268713108249_2_alg».proof.Proof.Gen.KernelIdeal
import proofs.«143996_j86268713108249_2_alg».proof.Proof.Gen.KernelIdeal.Skeleton
import proofs.«143996_j86268713108249_2_alg».proof.Proof.Gen.KernelIdeal.Launch
import proofs.«143996_j86268713108249_2_alg».proof.Proof.Gen.KernelIdeal.Points
import proofs.«143996_j86268713108249_2_alg».proof.Proof.Gen.KernelIdeal.Frame
import proofs.«143996_j86268713108249_2_alg».proof.Proof.Gen.ReferenceIdeal
import proofs.«143996_j86268713108249_2_alg».proof.Proof.Gen.Pre_finite_inputs
import proofs.«143996_j86268713108249_2_alg».proof.Proof.Gen.KernelIdeal.Value
import proofs.«143996_j86268713108249_2_alg».proof.Proof.Gen.ReferenceIdeal.Run
import proofs.«143996_j86268713108249_2_alg».proof.Proof.Gen.ReferenceIdeal.Read
import proofs.«143996_j86268713108249_2_alg».proof.Proof.KernelValue
import proofs.«143996_j86268713108249_2_alg».proof.Proof.RefValue
import proofs.«143996_j86268713108249_2_alg».proof.Proof.Finite
import Idealize.ShloMosaic.Adequacy
import Idealize.ShloMosaic.Init

noncomputable section

namespace Cert.Proof

open Idealize.ShloMosaic Idealize.ShloMosaic.TcCoe Idealize.SL.Sem Cert.FreshCache

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at `out` of its arguments (the blocks of the sixteen points), the reference's at its
    composed operations' term, which is `out` of ITS arguments once these are real; the arguments agree. -/
theorem algebraic : Cert.algebraic_KernelIdeal_ReferenceIdeal := by
  intro m ρ m' ρ' hpre hagree
  refine ⟨fun c => KernelSide.result m c, KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5⟩ := KernelSide.real_args m hpre c
  rw [Cert.ReferenceIdeal.Read.val_main_v32_eq, (hagree c).1, (hagree c).2.1, (hagree c).2.2.1, (hagree c).2.2.2.1,
    (hagree c).2.2.2.2.1, (hagree c).2.2.2.2.2]
  exact RefRead.ref_eq _ _ _ _ _ _ r0 r1 r2 r3 r4 r5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
